-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S64x34x34 .f32
  ∧ IdealRules.sign_bit.Statement Cert.KernelIdeal.S64x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32x32 : Shape := ⟨4, ![16, 64, 32, 32]⟩
abbrev S64x3x3x64 : Shape := ⟨4, ![64, 3, 3, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S64x3x3x64 : S_.BroadcastsInDim S64x3x3x64 (![] : Fin 0 → Fin S64x3x3x64.rank)
  reducesTo_S64x3x3x64_S_d0_1_2_3 : S64x3x3x64.ReducesTo [0, 1, 2, 3] S_

variable [Facts]

def fn {F : FTy → Type} [FloatOps F] (main_arg0 : FVec F S16x64x32x32 .f32) (main_arg1 : FVec F S64x3x3x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S64x3x3x64 .f32 := Host.absf main_arg1
  let main_cst_0 : FVec F S_ .f32 := constant S_ .f32 0x7F800000#32
  let main_v5 : FVec F S64x3x3x64 .f32 := broadcastInDim S64x3x3x64 ![] bcast_S_S64x3x3x64 main_cst_0
  let main_v6 : IVec S64x3x3x64 1 := cmpf .olt main_v4 main_v5
  let main_c_1 : IVec S_ 1 := constantI S_ 1 1#1
  let main_v7 : IVec S_ 1 := (fun x v => Host.reduce IntOp.andi x v reducesTo_S64x3x3x64_S_d0_1_2_3 h_S_) main_v6 main_c_1
  let main_v8 : IVec S_ 1 := andi main_v3 main_v7
  main_v8
-- ==== Kernel.lean ====
abbrev S16x64x32x32 : Shape := ⟨4, ![16, 64, 32, 32]⟩
abbrev S64x3x3x64 : Shape := ⟨4, ![64, 3, 3, 64]⟩
abbrev S_ : Shape := ⟨0, ![]⟩
abbrev S16x64x34x34 : Shape := ⟨4, ![16, 64, 34, 34]⟩
abbrev S64x9x64 : Shape := ⟨3, ![64, 9, 64]⟩
abbrev S16x64x1024 : Shape := ⟨3, ![16, 64, 1024]⟩
abbrev S1x64x34x34 : Shape := ⟨4, ![1, 64, 34, 34]⟩
abbrev S1x64x1024 : Shape := ⟨3, ![1, 64, 1024]⟩
abbrev S64x34x34 : Shape := ⟨3, ![64, 34, 34]⟩
abbrev S64x32x32 : Shape := ⟨3, ![64, 32, 32]⟩
abbrev S64x1024 : Shape := ⟨2, ![64, 1024]⟩
abbrev S1x9x64 : Shape := ⟨3, ![1, 9, 64]⟩
abbrev S9x64 : Shape := ⟨2, ![9, 64]⟩
abbrev S1x64 : Shape := ⟨2, ![1, 64]⟩
abbrev S64 : Shape := ⟨1, ![64]⟩
abbrev S64x1 : Shape := ⟨2, ![64, 1]⟩
abbrev S1024 : Shape := ⟨1, ![1024]⟩
abbrev S1x1x1024 : Shape := ⟨3, ![1, 1, 1024]⟩

abbrev nBuf : Space → Nat
  | .hbm => 10
  | .vmem => 5
  | .smem => 0
  | _ => 0

abbrev bufTy : (tb : Table) → Fin (tcTables nBuf tb) → BufTy
  | .hbm, ⟨0, _⟩ => ⟨S16x64x32x32, .f32⟩
  | .hbm, ⟨1, _⟩ => ⟨S64x3x3x64, .f32⟩
  | .hbm, ⟨2, _⟩ => ⟨S_, .i32⟩
  | .hbm, ⟨3, _⟩ => ⟨S_, .f32⟩
  | .hbm, ⟨4, _⟩ => ⟨S16x64x34x34, .f32⟩
  | .hbm, ⟨5, _⟩ => ⟨S64x3x3x64, .f32⟩
  | .hbm, ⟨6, _⟩ => ⟨S64x9x64, .f32⟩
  | .hbm, ⟨7, _⟩ => ⟨S64x9x64, .bf16⟩
  | .hbm, ⟨8, _⟩ => ⟨S16x64x1024, .f32⟩
  | .hbm, ⟨9, _⟩ => ⟨S16x64x32x32, .f32⟩
  | .local _ .vmem, ⟨0, _⟩ => ⟨S1x64x34x34, .f32⟩
  | .local _ .vmem, ⟨1, _⟩ => ⟨S1x64x34x34, .f32⟩
  | .local _ .vmem, ⟨2, _⟩ => ⟨S64x9x64, .bf16⟩
  | .local _ .vmem, ⟨3, _⟩ => ⟨S1x64x1024, .f32⟩
  | .local _ .vmem, ⟨4, _⟩ => ⟨S1x64x1024, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c64_i32 : BitVec 32 := 64#32
  let v31 : BitVec 32 := Scalar.addi c0_i32 c64_i32
  let c1_i32 : BitVec 32 := 1#32
  ⟨c0_i32, v31, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v32 : Index := Scalar.indexCast arg4
  let c0_4 : Index := 0#32
  let c0_5 : Index := 0#32
  ![v32.toNat, 0, 0]
def k0_off2 (k0_t1 : Fin k0_t1_loop.trips) : Fin 3 → Nat :=
  let c0_11 : Index := 0#32
  let c0_i32 : BitVec 32 := 0#32
  let c1_i32 : BitVec 32 := 1#32
  let arg4 : BitVec 32 := Scf.iv c0_i32 c1_i32 k0_t1
  let v102 : Index := Scalar.indexCast arg4
  let c0_12 : Index := 0#32
  ![0, v102.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x34x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x9x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x64x32x32_S16x64x34x34_000_000_110_110 : S16x64x32x32.Pads (![0, 0, 1, 1] : Fin 4 → Nat) ![0, 0, 1, 1] ![0, 0, 0, 0] S16x64x34x34
  h_S_ : 0 < S_.numel
  shapeCasts_S64x3x3x64_S64x9x64 : S64x3x3x64.ShapeCasts S64x9x64
  bitsLt_bf16_f32 : FTy.bits .bf16 < FTy.bits .f32
  inb_S1x64x34x34_S1x64x34x34_0_0_0_0 : ∀ a, (![0, 0, 0, 0] : Fin 4 → Nat) a + S1x64x34x34.size a ≤ S1x64x34x34.size a
  h_S1x64x34x34 : 0 < S1x64x34x34.numel
  shapeCasts_S1x64x34x34_S64x34x34 : S1x64x34x34.ShapeCasts S64x34x34
  slices_S64x34x34_o0_0_0_S64x32x32 : S64x34x34.Slices ![0, 0, 0] S64x32x32
  shapeCasts_S64x32x32_S64x1024 : S64x32x32.ShapeCasts S64x1024
  slices_S64x34x34_o0_0_1_S64x32x32 : S64x34x34.Slices ![0, 0, 1] S64x32x32
  slices_S64x34x34_o0_0_2_S64x32x32 : S64x34x34.Slices ![0, 0, 2] S64x32x32
  slices_S64x34x34_o0_1_0_S64x32x32 : S64x34x34.Slices ![0, 1, 0] S64x32x32
  slices_S64x34x34_o0_1_1_S64x32x32 : S64x34x34.Slices ![0, 1, 1] S64x32x32
  slices_S64x34x34_o0_1_2_S64x32x32 : S64x34x34.Slices ![0, 1, 2] S64x32x32
  slices_S64x34x34_o0_2_0_S64x32x32 : S64x34x34.Slices ![0, 2, 0] S64x32x32
  slices_S64x34x34_o0_2_1_S64x32x32 : S64x34x34.Slices ![0, 2, 1] S64x32x32
  slices_S64x34x34_o0_2_2_S64x32x32 : S64x34x34.Slices ![0, 2, 2] S64x32x32
  h_S1x9x64 : 0 < S1x9x64.numel
  shapeCasts_S1x9x64_S9x64 : S1x9x64.ShapeCasts S9x64
  slices_S9x64_o0_0_S1x64 : S9x64.Slices ![0, 0] S1x64
  shapeCasts_S1x64_S64 : S1x64.ShapeCasts S64
  shapeCasts_S64_S64x1 : S64.ShapeCasts S64x1
  broadcasts_S64x1_S64x1024 : S64x1.Broadcasts S64x1024
  slices_S9x64_o1_0_S1x64 : S9x64.Slices ![1, 0] S1x64
  slices_S9x64_o2_0_S1x64 : S9x64.Slices ![2, 0] S1x64
  slices_S9x64_o3_0_S1x64 : S9x64.Slices ![3, 0] S1x64
  slices_S9x64_o4_0_S1x64 : S9x64.Slices ![4, 0] S1x64
  slices_S9x64_o5_0_S1x64 : S9x64.Slices ![5, 0] S1x64
  slices_S9x64_o6_0_S1x64 : S9x64.Slices ![6, 0] S1x64
  slices_S9x64_o7_0_S1x64 : S9x64.Slices ![7, 0] S1x64
  slices_S9x64_o8_0_S1x64 : S9x64.Slices ![8, 0] S1x64
  reduces_S64x1024_S1024 : S64x1024.Reduces [0] S1024
  h_S1x1x1024 : 0 < S1x1x1024.numel
  shapeCasts_S1x1x1024_S1024 : S1x1x1024.ShapeCasts S1024
  shapeCasts_S1024_S1x1x1024 : S1024.ShapeCasts S1x1x1024
  shapeCasts_S16x64x1024_S16x64x32x32 : S16x64x1024.ShapeCasts S16x64x32x32
  hrank0 : 0 < grid0.rank
  k0_t1_ok : k0_t1_loop.OK
  k0_off1_inb : ∀ k0_t1 : Fin k0_t1_loop.trips, ∀ a, (k0_off1 k0_t1) a + S1x9x64.size a ≤ S64x9x64.size a
  k0_off2_inb : ∀ k0_t1 : Fin k0_t1_loop.trips, ∀ a, (k0_off2 k0_t1) a + S1x1x1024.size a ≤ S1x64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x34x34.size a ≤ S16x64x34x34.size a
  hwx0_0 : ∀ i : grid0.Coords, EltTy.bits .f32 = 32 ∨ (Rect.block (s := S16x64x34x34) S1x64x34x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x9x64.size a ≤ S64x9x64.size a
  hwx0_1 : ∀ i : grid0.Coords, EltTy.bits .bf16 = 32 ∨ (Rect.block (s := S64x9x64) S64x9x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S16x64x1024.size a
  hwx0_2 : ∀ i : grid0.Coords, EltTy.bits .f32 = 32 ∨ (Rect.block (s := S16x64x1024) S1x64x1024.size (cc0_transform_2 i) (hinb0_2 i)).WholeWords (EltTy.packing .f32)

variable [Facts₀]

abbrev win0_0 : Pipeline.Window sig grid0 :=
  Pipeline.Window.ofSpec (Memref.whole main_v0) S1x64x34x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x32x32 : Shape := ⟨4, ![16, 64, 32, 32]⟩
abbrev S64x3x3x64 : Shape := ⟨4, ![64, 3, 3, 64]⟩
abbrev S_ : Shape := ⟨0, ![]⟩
abbrev S16x64x34x34 : Shape := ⟨4, ![16, 64, 34, 34]⟩
abbrev S16x64x64x32x32 : Shape := ⟨5, ![16, 64, 64, 32, 32]⟩
abbrev S16x1x64x32x32 : Shape := ⟨5, ![16, 1, 64, 32, 32]⟩
abbrev S64x1x1x64 : Shape := ⟨4, ![64, 1, 1, 64]⟩
abbrev S64x64 : Shape := ⟨2, ![64, 64]⟩
abbrev S1x64x64x1x1 : Shape := ⟨5, ![1, 64, 64, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S64x3x3x64, .f32⟩
  | .hbm, ⟨2, _⟩ => ⟨S16x64x32x32, .f32⟩
  | .hbm, ⟨3, _⟩ => ⟨S16x64x32x32, .f32⟩
  | .hbm, ⟨4, _⟩ => ⟨S16x64x32x32, .f32⟩
  | .hbm, ⟨5, _⟩ => ⟨S64x3x3x64, .f32⟩
  | .hbm, ⟨6, _⟩ => ⟨S64x3x3x64, .f32⟩
  | .hbm, ⟨7, _⟩ => ⟨S64x3x3x64, .f32⟩
  | .hbm, ⟨8, _⟩ => ⟨S_, .i32⟩
  | .hbm, ⟨9, _⟩ => ⟨S_, .f32⟩
  | .hbm, ⟨10, _⟩ => ⟨S16x64x34x34, .f32⟩
  | .hbm, ⟨11, _⟩ => ⟨S_, .f32⟩
  | .hbm, ⟨12, _⟩ => ⟨S16x64x64x32x32, .f32⟩
  | .hbm, ⟨13, _⟩ => ⟨S16x64x32x32, .f32⟩
  | .hbm, ⟨14, _⟩ => ⟨S16x1x64x32x32, .f32⟩
  | .hbm, ⟨15, _⟩ => ⟨S64x1x1x64, .f32⟩
  | .hbm, ⟨16, _⟩ => ⟨S64x64, .f32⟩
  | .hbm, ⟨17, _⟩ => ⟨S1x64x64x1x1, .f32⟩
  | .hbm, ⟨18, _⟩ => ⟨S16x64x64x32x32, .f32⟩
  | .hbm, ⟨19, _⟩ => ⟨S16x64x64x32x32, .f32⟩
  | .hbm, ⟨20, _⟩ => ⟨S16x64x64x32x32, .f32⟩
  | .hbm, ⟨21, _⟩ => ⟨S16x64x64x32x32, .f32⟩
  | .hbm, ⟨22, _⟩ => ⟨S16x64x32x32, .f32⟩
  | .hbm, ⟨23, _⟩ => ⟨S16x1x64x32x32, .f32⟩
  | .hbm, ⟨24, _⟩ => ⟨S64x1x1x64, .f32⟩
  | .hbm, ⟨25, _⟩ => ⟨S64x64, .f32⟩
  | .hbm, ⟨26, _⟩ => ⟨S1x64x64x1x1, .f32⟩
  | .hbm, ⟨27, _⟩ => ⟨S16x64x64x32x32, .f32⟩
  | .hbm, ⟨28, _⟩ => ⟨S16x64x64x32x32, .f32⟩
  | .hbm, ⟨29, _⟩ => ⟨S16x64x64x32x32, .f32⟩
  | .hbm, ⟨30, _⟩ => ⟨S16x64x64x32x32, .f32⟩
  | .hbm, ⟨31, _⟩ => ⟨S16x64x32x32, .f32⟩
  | .hbm, ⟨32, _⟩ => ⟨S16x1x64x32x32, .f32⟩
  | .hbm, ⟨33, _⟩ => ⟨S64x1x1x64, .f32⟩
  | .hbm, ⟨34, _⟩ => ⟨S64x64, .f32⟩
  | .hbm, ⟨35, _⟩ => ⟨S1x64x64x1x1, .f32⟩
  | .hbm, ⟨36, _⟩ => ⟨S16x64x64x32x32, .f32⟩
  | .hbm, ⟨37, _⟩ => ⟨S16x64x64x32x32, .f32⟩
  | .hbm, ⟨38, _⟩ => ⟨S16x64x64x32x32, .f32⟩
  | .hbm, ⟨39, _⟩ => ⟨S16x64x64x32x32, .f32⟩
  | .hbm, ⟨40, _⟩ => ⟨S16x64x32x32, .f32⟩
  | .hbm, ⟨41, _⟩ => ⟨S16x1x64x32x32, .f32⟩
  | .hbm, ⟨42, _⟩ => ⟨S64x1x1x64, .f32⟩
  | .hbm, ⟨43, _⟩ => ⟨S64x64, .f32⟩
  | .hbm, ⟨44, _⟩ => ⟨S1x64x64x1x1, .f32⟩
  | .hbm, ⟨45, _⟩ => ⟨S16x64x64x32x32, .f32⟩
  | .hbm, ⟨46, _⟩ => ⟨S16x64x64x32x32, .f32⟩
  | .hbm, ⟨47, _⟩ => ⟨S16x64x64x32x32, .f32⟩
  | .hbm, ⟨48, _⟩ => ⟨S16x64x64x32x32, .f32⟩
  | .hbm, ⟨49, _⟩ => ⟨S16x64x32x32, .f32⟩
  | .hbm, ⟨50, _⟩ => ⟨S16x1x64x32x32, .f32⟩
  | .hbm, ⟨51, _⟩ => ⟨S64x1x1x64, .f32⟩
  | .hbm, ⟨52, _⟩ => ⟨S64x64, .f32⟩
  | .hbm, ⟨53, _⟩ => ⟨S1x64x64x1x1, .f32⟩
  | .hbm, ⟨54, _⟩ => ⟨S16x64x64x32x32, .f32⟩
  | .hbm, ⟨55, _⟩ => ⟨S16x64x64x32x32, .f32⟩
  | .hbm, ⟨56, _⟩ => ⟨S16x64x64x32x32, .f32⟩
  | .hbm, ⟨57, _⟩ => ⟨S16x64x64x32x32, .f32⟩
  | .hbm, ⟨58, _⟩ => ⟨S16x64x32x32, .f32⟩
  | .hbm, ⟨59, _⟩ => ⟨S16x1x64x32x32, .f32⟩
  | .hbm, ⟨60, _⟩ => ⟨S64x1x1x64, .f32⟩
  | .hbm, ⟨61, _⟩ => ⟨S64x64, .f32⟩
  | .hbm, ⟨62, _⟩ => ⟨S1x64x64x1x1, .f32⟩
  | .hbm, ⟨63, _⟩ => ⟨S16x64x64x32x32, .f32⟩
  | .hbm, ⟨64, _⟩ => ⟨S16x64x64x32x32, .f32⟩
  | .hbm, ⟨65, _⟩ => ⟨S16x64x64x32x32, .f32⟩
  | .hbm, ⟨66, _⟩ => ⟨S16x64x64x32x32, .f32⟩
  | .hbm, ⟨67, _⟩ => ⟨S16x64x32x32, .f32⟩
  | .hbm, ⟨68, _⟩ => ⟨S16x1x64x32x32, .f32⟩
  | .hbm, ⟨69, _⟩ => ⟨S64x1x1x64, .f32⟩
  | .hbm, ⟨70, _⟩ => ⟨S64x64, .f32⟩
  | .hbm, ⟨71, _⟩ => ⟨S1x64x64x1x1, .f32⟩
  | .hbm, ⟨72, _⟩ => ⟨S16x64x64x32x32, .f32⟩
  | .hbm, ⟨73, _⟩ => ⟨S16x64x64x32x32, .f32⟩
  | .hbm, ⟨74, _⟩ => ⟨S16x64x64x32x32, .f32⟩
  | .hbm, ⟨75, _⟩ => ⟨S16x64x64x32x32, .f32⟩
  | .hbm, ⟨76, _⟩ => ⟨S16x64x32x32, .f32⟩
  | .hbm, ⟨77, _⟩ => ⟨S16x1x64x32x32, .f32⟩
  | .hbm, ⟨78, _⟩ => ⟨S64x1x1x64, .f32⟩
  | .hbm, ⟨79, _⟩ => ⟨S64x64, .f32⟩
  | .hbm, ⟨80, _⟩ => ⟨S1x64x64x1x1, .f32⟩
  | .hbm, ⟨81, _⟩ => ⟨S16x64x64x32x32, .f32⟩
  | .hbm, ⟨82, _⟩ => ⟨S16x64x64x32x32, .f32⟩
  | .hbm, ⟨83, _⟩ => ⟨S16x64x64x32x32, .f32⟩
  | .hbm, ⟨84, _⟩ => ⟨S16x64x64x32x32, .f32⟩
  | .hbm, ⟨85, _⟩ => ⟨S16x64x32x32, .f32⟩
  | .hbm, ⟨86, _⟩ => ⟨S16x1x64x32x32, .f32⟩
  | .hbm, ⟨87, _⟩ => ⟨S64x1x1x64, .f32⟩
  | .hbm, ⟨88, _⟩ => ⟨S64x64, .f32⟩
  | .hbm, ⟨89, _⟩ => ⟨S1x64x64x1x1, .f32⟩
  | .hbm, ⟨90, _⟩ => ⟨S16x64x64x32x32, .f32⟩
  | .hbm, ⟨91, _⟩ => ⟨S16x64x64x32x32, .f32⟩
  | .hbm, ⟨92, _⟩ => ⟨S16x64x64x32x32, .f32⟩
  | .hbm, ⟨93, _⟩ => ⟨S16x64x64x32x32, .f32⟩
  | .hbm, ⟨94, _⟩ => ⟨S16x64x64x32x32, .f32⟩
  | .hbm, ⟨95, _⟩ => ⟨S16x64x64x32x32, .f32⟩
  | .hbm, ⟨96, _⟩ => ⟨S16x64x64x32x32, .f32⟩
  | .hbm, ⟨97, _⟩ => ⟨S_, .f32⟩
  | .hbm, ⟨98, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_cst_0 : Ref sig .tc := ⟨.hbm, 97, rfl⟩
abbrev main_v92 : Ref sig .tc := ⟨.hbm, 98, rfl⟩

abbrev nD : Nat := 1
abbrev τ : Topo := Topo.v7x

variable {F : FTy → Type} [FloatOps F]

class Facts₀ : Prop where
  pads_S16x64x32x32_S16x64x34x34_000_000_110_110 : S16x64x32x32.Pads (![0, 0, 1, 1] : Fin 4 → Nat) ![0, 0, 1, 1] ![0, 0, 0, 0] S16x64x34x34
  h_S_ : 0 < S_.numel
  bcast_S_S16x64x64x32x32 : S_.BroadcastsInDim S16x64x64x32x32 (![] : Fin 0 → Fin S16x64x64x32x32.rank)
  slices_S16x64x34x34_S16x64x32x32_0_0_0_0 : S16x64x34x34.Slices ![0, 0, 0, 0] S16x64x32x32
  bcast_S16x64x32x32_S16x1x64x32x32_0_2_3_4 : S16x64x32x32.BroadcastsInDim S16x1x64x32x32 (![0, 2, 3, 4] : Fin 4 → Fin S16x1x64x32x32.rank)
  slices_S64x3x3x64_S64x1x1x64_0_0_0_0 : S64x3x3x64.Slices ![0, 0, 0, 0] S64x1x1x64
  shapeCasts_S64x1x1x64_S64x64 : S64x1x1x64.ShapeCasts S64x64
  bcast_S64x64_S1x64x64x1x1_1_2 : S64x64.BroadcastsInDim S1x64x64x1x1 (![1, 2] : Fin 2 → Fin S1x64x64x1x1.rank)
  bcast_S16x1x64x32x32_S16x64x64x32x32_0_1_2_3_4 : S16x1x64x32x32.BroadcastsInDim S16x64x64x32x32 (![0, 1, 2, 3, 4] : Fin 5 → Fin S16x64x64x32x32.rank)
  bcast_S1x64x64x1x1_S16x64x64x32x32_0_1_2_3_4 : S1x64x64x1x1.BroadcastsInDim S16x64x64x32x32 (![0, 1, 2, 3, 4] : Fin 5 → Fin S16x64x64x32x32.rank)
  slices_S16x64x34x34_S16x64x32x32_0_0_0_1 : S16x64x34x34.Slices ![0, 0, 0, 1] S16x64x32x32
  slices_S64x3x3x64_S64x1x1x64_0_0_1_0 : S64x3x3x64.Slices ![0, 0, 1, 0] S64x1x1x64
  slices_S16x64x34x34_S16x64x32x32_0_0_0_2 : S16x64x34x34.Slices ![0, 0, 0, 2] S16x64x32x32
  slices_S64x3x3x64_S64x1x1x64_0_0_2_0 : S64x3x3x64.Slices ![0, 0, 2, 0] S64x1x1x64
  slices_S16x64x34x34_S16x64x32x32_0_0_1_0 : S16x64x34x34.Slices ![0, 0, 1, 0] S16x64x32x32
  slices_S64x3x3x64_S64x1x1x64_0_1_0_0 : S64x3x3x64.Slices ![0, 1, 0, 0] S64x1x1x64
  slices_S16x64x34x34_S16x64x32x32_0_0_1_1 : S16x64x34x34.Slices ![0, 0, 1, 1] S16x64x32x32
  slices_S64x3x3x64_S64x1x1x64_0_1_1_0 : S64x3x3x64.Slices ![0, 1, 1, 0] S64x1x1x64
  slices_S16x64x34x34_S16x64x32x32_0_0_1_2 : S16x64x34x34.Slices ![0, 0, 1, 2] S16x64x32x32
  slices_S64x3x3x64_S64x1x1x64_0_1_2_0 : S64x3x3x64.Slices ![0, 1, 2, 0] S64x1x1x64
  slices_S16x64x34x34_S16x64x32x32_0_0_2_0 : S16x64x34x34.Slices ![0, 0, 2, 0] S16x64x32x32
  slices_S64x3x3x64_S64x1x1x64_0_2_0_0 : S64x3x3x64.Slices ![0, 2, 0, 0] S64x1x1x64
  slices_S16x64x34x34_S16x64x32x32_0_0_2_1 : S16x64x34x34.Slices ![0, 0, 2, 1] S16x64x32x32
  slices_S64x3x3x64_S64x1x1x64_0_2_1_0 : S64x3x3x64.Slices ![0, 2, 1, 0] S64x1x1x64
  slices_S16x64x34x34_S16x64x32x32_0_0_2_2 : S16x64x34x34.Slices ![0, 0, 2, 2] S16x64x32x32
  slices_S64x3x3x64_S64x1x1x64_0_2_2_0 : S64x3x3x64.Slices ![0, 2, 2, 0] S64x1x1x64
  reducesTo_S16x64x64x32x32_S16x64x32x32_d2 : S16x64x64x32x32.ReducesTo [2] S16x64x32x32

variable [Facts₀]

class Facts : Prop extends Facts₀ where

variable [Facts]
-- ==== Proof.MajoritySpec.lean ====
/-
  The majority convolution as one function of the two argument arrays, index by index, on the extended reals.

  Every entry of the input x[b, ci, y, x'] and of the weight w[co, dy, dx, ci] is replaced by its sign; the signed
  input gets a border of zeros one entry wide on its two spatial axes; for every output channel co and input
  channel ci the nine products of the 3 x 3 window at (y, x') with the nine taps of (co, ci) are added up; the
  sign of that sum is the vote of input channel ci; the result at (b, co, y, x') is the sum of the 64 votes.

  The sign of an extended real is always one of the reals -1, 0, 1 (also at the infinities), so every product and
  every nine-term sum here is a real number whatever the arguments are. The one law the certificate needs beside
  that is  v + (sign v - v) = sign v  for a real v: the reference spells its binarization that way.
-/
import Idealize.ShloMosaic.PureOps.Ideal
import Idealize.ShloMosaic.PureOps.Ideal.Laws
import Idealize.ShloMosaic.Lib.ValueIdx

noncomputable section

namespace Cert.MajorityConv

open Idealize.ShloMosaic Idealize.ShloMosaic.ValueIdx
open scoped BigOperators

/-- The input and the result: batch, channel, row, column. -/
abbrev SX : Shape := ⟨4, ![16, 64, 32, 32]⟩
/-- The weight: output channel, tap row, tap column, input channel. -/
abbrev SW : Shape := ⟨4, ![64, 3, 3, 64]⟩
/-- The input with its border of zeros. -/
abbrev SP : Shape := ⟨4, ![16, 64, 34, 34]⟩
/-- The shape of a scalar. -/
abbrev S0 : Shape := ⟨0, ![]⟩

/-- The signs of the input's entries, with a border of zeros one entry wide on the two spatial axes. -/
def signPad (x : SX.Idx → EReal) : SP.Idx → EReal :=
  pad SP ![0, 0, 1, 1] ![0, 0, 1, 1] ![0, 0, 0, 0] (fun i => Ideal.sign (x i)) (fun _ : S0.Idx => (0 : EReal))

/-- One product of a window: the padded entry at (y + dy, x' + dx) of input channel ci times tap (dy, dx) of (co, ci). -/
def tap (P : SP.Idx → EReal) (W : SW.Idx → EReal) (b : Fin 16) (co ci : Fin 64) (y x' : Fin 32) (dy dx : Fin 3) : EReal :=
  P (ix4 b ci ⟨y.val + dy.val, by omega⟩ ⟨x'.val + dx.val, by omega⟩) * W (ix4 co dy dx ci)

/-- The nine products of the window at (y, x'), added in the order of the taps, rows first. -/
def tapSum (P : SP.Idx → EReal) (W : SW.Idx → EReal) (b : Fin 16) (co ci : Fin 64) (y x' : Fin 32) : EReal :=
  tap P W b co ci y x' 0 0 + tap P W b co ci y x' 0 1 + tap P W b co ci y x' 0 2
    + tap P W b co ci y x' 1 0 + tap P W b co ci y x' 1 1 + tap P W b co ci y x' 1 2
    + tap P W b co ci y x' 2 0 + tap P W b co ci y x' 2 1 + tap P W b co ci y x' 2 2

/-- The result at (b, co, y, x'): the sum over the input channels of the sign of the window's nine-term sum. -/
def voteSum (x : SX.Idx → EReal) (w : SW.Idx → EReal) (b : Fin 16) (co : Fin 64) (y x' : Fin 32) : EReal :=
  ∑ ci : Fin 64, Ideal.sign (tapSum (signPad x) (fun j => Ideal.sign (w j)) b co ci y x')

/-- The majority convolution of x by w, as one array. -/
def G (x : SX.Idx → EReal) (w : SW.Idx → EReal) : SX.Idx → EReal :=
  fun i => voteSum x w (i 0) (i 1) (i 2) (i 3)

theorem G_ix4 (x : SX.Idx → EReal) (w : SW.Idx → EReal) (b : Fin 16) (co : Fin 64) (y x' : Fin 32) :
    G x w (ix4 b co y x') = voteSum x w b co y x' := rfl

/-! ## The sign is a real number, and the reference's spelling of it -/

/-- The sign of any extended real is a real number. -/
theorem sign_isReal (v : EReal) : ∃ r : ℝ, Ideal.sign v = (r : EReal) := by
  induction v using EReal.rec with
  | bot => exact ⟨-1, by rw [Ideal.sign_bot]; norm_num⟩
  | coe r => exact ⟨(SignType.sign r : ℝ), rfl⟩
  | top => exact ⟨1, by rw [Ideal.sign_top]; norm_num⟩

/-- For a real v the sum  v + (sign v - v)  is  sign v : the two copies of v cancel because v is finite. -/
theorem add_sign_sub_self (r : ℝ) : (r : EReal) + (Ideal.sign (r : EReal) - (r : EReal)) = Ideal.sign (r : EReal) := by
  rw [Ideal.sign_coe, ← EReal.coe_sub, ← EReal.coe_add]
  exact congrArg _ (by ring)

/-- The same law at an entry known to be real. -/
theorem add_sign_sub_self_of_isReal (v : EReal) (hv : ∃ r : ℝ, v = (r : EReal)) : v + (Ideal.sign v - v) = Ideal.sign v := by
  obtain ⟨r, rfl⟩ := hv
  exact add_sign_sub_self r

/-- A product of two reals is a real. -/
theorem isReal_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb
  exact ⟨r * s, (EReal.coe_mul r s).symm⟩

/-- A sum of two reals is a real. -/
theorem isReal_add {a b : EReal} (ha : ∃ r : ℝ, a = (r : EReal)) (hb : ∃ r : ℝ, b = (r : EReal)) : ∃ r : ℝ, a + b = (r : EReal) := by
  obtain ⟨r, rfl⟩ := ha; obtain ⟨s, rfl⟩ := hb
  exact ⟨r + s, (EReal.coe_add r s).symm⟩

/-- Every entry of the padded sign array is a real: a sign inside, zero on the border. -/
theorem signPad_isReal (x : SX.Idx → EReal) (j : SP.Idx) : ∃ r : ℝ, signPad x j = (r : EReal) := by
  unfold signPad pad
  split
  · exact sign_isReal _
  · exact ⟨0, rfl⟩

/-- The nine-term sum of a window is a real, whatever the arguments are. -/
theorem tapSum_isReal (x : SX.Idx → EReal) (w : SW.Idx → EReal) (b : Fin 16) (co ci : Fin 64) (y x' : Fin 32) :
    ∃ r : ℝ, tapSum (signPad x) (fun j => Ideal.sign (w j)) b co ci y x' = (r : EReal) := by
  have ht : ∀ dy dx : Fin 3, ∃ r : ℝ, tap (signPad x) (fun j => Ideal.sign (w j)) b co ci y x' dy dx = (r : EReal) :=
    fun dy dx => isReal_mul (signPad_isReal x _) (sign_isReal _)
  unfold tapSum
  exact isReal_add (isReal_add (isReal_add (isReal_add (isReal_add (isReal_add (isReal_add (isReal_add (ht 0 0) (ht 0 1)) (ht 0 2))
    (ht 1 0)) (ht 1 1)) (ht 1 2)) (ht 2 0)) (ht 2 1)) (ht 2 2)

end Cert.MajorityConv

end
-- ==== Proof.Finite.lean ====
/-
  Under the precondition every entry of both arguments is a real number.

  The precondition says: the absolute value of every entry of x and of every entry of w is below plus infinity, the
  two conjunctions taken over all indices and joined by one more conjunction. An extended real v with max v (-v) < ⊤
  is neither ⊥ (there -v = ⊤) nor ⊤, so it is a real.
-/
import proofs.«150547_j66314295050711_2_alg».proof.Pre_finite_inputs
import Idealize.ShloMosaic.Lib.ReduceAll
import Idealize.ShloMosaic.Lib.ValueIdx
import Idealize.ShloMosaic.PureOps.Ideal.Laws

noncomputable section

namespace Cert.MajorityConv.Finite

open Idealize.ShloMosaic Idealize.ShloMosaic.ValueIdx

/-- The pattern 0x7F800000 is plus infinity. -/
theorem ofBits_inf_f32 : Ideal.ofBits .f32 0x7F800000#32 = (⊤ : EReal) := by
  simp [Ideal.ofBits, Ideal.ieee]

/-- An extended real whose absolute value compares below plus infinity is a real. -/
theorem isReal_of_abs_lt_top (v : EReal) (h : Ideal.cmp .olt (max v (-v)) (⊤ : EReal) = 1#1) : ∃ r : ℝ, v = (r : EReal) := by
  induction v using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- The precondition holding, every entry of x and every entry of w is a real number. -/
theorem isReal_of_pre [Cert.Pre_finite_inputs.Facts] (x : FVec Ideal Cert.Pre_finite_inputs.S16x64x32x32 .f32)
    (w : FVec Ideal Cert.Pre_finite_inputs.S64x3x3x64 .f32)
    (h : Cert.Pre_finite_inputs.fn (F := Ideal) x w = fun _ => 1#1) :
    (∀ i, ∃ r : ℝ, x i = (r : EReal)) ∧ (∀ j, ∃ r : ℝ, w j = (r : EReal)) := by
  have h0 := congrFun h ValueIdx.ix0
  unfold Cert.Pre_finite_inputs.fn at h0
  dsimp only at h0
  obtain ⟨hx, hw⟩ := IntOp.andi_eq_one.1 h0
  refine ⟨fun i => ?_, fun j => ?_⟩
  · have e := Host.reduce_andi_all _ _ _ _ _ hx i
    have e' : Ideal.cmp .olt (max (x i) (-(x i))) (Ideal.ofBits .f32 0x7F800000#32) = 1#1 := e
    rw [ofBits_inf_f32] at e'
    exact isReal_of_abs_lt_top (x i) e'
  · have e := Host.reduce_andi_all _ _ _ _ _ hw j
    have e' : Ideal.cmp .olt (max (w j) (-(w j))) (Ideal.ofBits .f32 0x7F800000#32) = 1#1 := e
    rw [ofBits_inf_f32] at e'
    exact isReal_of_abs_lt_top (w j) e'

end Cert.MajorityConv.Finite

end
-- ==== Proof.RefRead.lean ====
/-
  The reference's value, read one host operation at a time: its binarization v + (sign v - v), the zero
  pad, the nine shifted windows multiplied by the weight's taps and added up in order, the second
  binarization, and the sum over the input channels.
-/
import proofs.«150547_j66314295050711_2_alg».proof.Defs
import proofs.«150547_j66314295050711_2_alg».proof.Proof.Gen.ReferenceIdeal.Read
import proofs.«150547_j66314295050711_2_alg».proof.Proof.MajoritySpec

noncomputable section

namespace Cert.ReferenceIdeal.RefValue

open Idealize.ShloMosaic Idealize.ShloMosaic.ValueIdx
open Cert.ReferenceIdeal Cert.ReferenceIdeal.Gen Cert.ReferenceIdeal.Read Cert.MajorityConv
open scoped BigOperators

/-! ## The two binarizations of the arguments -/

/-- On a real input the spelled binarization v + (sign v - v) is the sign, entry by entry. -/
theorem v2_eq (x0 : (⟨S16x64x32x32, .f32⟩ : BufTy).Contents (Elt Ideal)) (hx : ∀ i, ∃ r : ℝ, x0 i = (r : EReal)) :
    val_main_v2 (F := Ideal) x0 = fun i => Ideal.sign (x0 i) := by
  funext i
  show x0 i + (Ideal.sign (x0 i) - x0 i) = Ideal.sign (x0 i)
  exact add_sign_sub_self_of_isReal _ (hx i)

/-- The same for the weight. -/
theorem v5_eq (x1 : (⟨S64x3x3x64, .f32⟩ : BufTy).Contents (Elt Ideal)) (hw : ∀ i, ∃ r : ℝ, x1 i = (r : EReal)) :
    val_main_v5 (F := Ideal) x1 = fun j => Ideal.sign (x1 j) := by
  funext j
  show x1 j + (Ideal.sign (x1 j) - x1 j) = Ideal.sign (x1 j)
  exact add_sign_sub_self_of_isReal _ (hw j)

/-- The pad's fill value, the integer 0 converted, is the real 0. -/
theorem fill_eq : val_main_call0_v0 (F := Ideal) = fun _ : S0.Idx => (0 : EReal) := by
  funext i
  show (((0#32 : BitVec 32).toInt : ℝ) : EReal) = 0
  simp

/-- The padded array of the reference is the specification's padded sign array. -/
theorem v6_eq (x0 : (⟨S16x64x32x32, .f32⟩ : BufTy).Contents (Elt Ideal)) (hx : ∀ i, ∃ r : ℝ, x0 i = (r : EReal)) :
    val_main_v6 (F := Ideal) x0 = signPad x0 := by
  unfold val_main_v6 signPad
  rw [v2_eq x0 hx, fill_eq]

/-! ## The nine products of a window -/

/-- The product stage of tap (0, 0) at (b, co, ci, y, x'): the padded sign at (y + 0, x' + 0) of channel ci times the sign of w[co, 0, 0, ci]. -/
theorem v15_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v15 (F := Ideal) x0 x1 (ix5 b co ci y x')
      = tap (signPad x0) (fun j => Ideal.sign (x1 j)) b co ci y x' 0 0 := by
  have hX : idx_main_v8 (idx_main_v9 (idx_main_v13 (ix5 b co ci y x')))
      = ix4 b ci (⟨y.val + 0, by omega⟩ : Fin 34) (⟨x'.val + 0, by omega⟩ : Fin 34) := by
    funext a
    exact Fin.ext (by
      match a with
      | ⟨0, _⟩ => rfl
      | ⟨1, _⟩ => rfl
      | ⟨2, _⟩ => show y.val = y.val + 0; omega
      | ⟨3, _⟩ => show x'.val = x'.val + 0; omega)
  have hW : idx_main_v10 (idx_main_v11 (idx_main_v12 (idx_main_v14 (ix5 b co ci y x'))))
      = ix4 co (0 : Fin 3) (0 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v15_apply, val_main_v13_apply, val_main_v9_apply, val_main_v8_apply, hX,
    val_main_v14_apply, val_main_v12_apply, val_main_v11_apply, val_main_v10_apply, hW, v6_eq x0 hx, v5_eq x1 hw]
  rfl

/-- The product stage of tap (0, 1) at (b, co, ci, y, x'): the padded sign at (y + 0, x' + 1) of channel ci times the sign of w[co, 0, 1, ci]. -/
theorem v24_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v24 (F := Ideal) x0 x1 (ix5 b co ci y x')
      = tap (signPad x0) (fun j => Ideal.sign (x1 j)) b co ci y x' 0 1 := by
  have hX : idx_main_v17 (idx_main_v18 (idx_main_v22 (ix5 b co ci y x')))
      = ix4 b ci (⟨y.val + 0, by omega⟩ : Fin 34) (⟨x'.val + 1, by omega⟩ : Fin 34) := by
    funext a
    exact Fin.ext (by
      match a with
      | ⟨0, _⟩ => rfl
      | ⟨1, _⟩ => rfl
      | ⟨2, _⟩ => show y.val = y.val + 0; omega
      | ⟨3, _⟩ => show 1 + x'.val = x'.val + 1; omega)
  have hW : idx_main_v19 (idx_main_v20 (idx_main_v21 (idx_main_v23 (ix5 b co ci y x'))))
      = ix4 co (0 : Fin 3) (1 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v24_apply, val_main_v22_apply, val_main_v18_apply, val_main_v17_apply, hX,
    val_main_v23_apply, val_main_v21_apply, val_main_v20_apply, val_main_v19_apply, hW, v6_eq x0 hx, v5_eq x1 hw]
  rfl

/-- The product stage of tap (0, 2) at (b, co, ci, y, x'): the padded sign at (y + 0, x' + 2) of channel ci times the sign of w[co, 0, 2, ci]. -/
theorem v33_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v33 (F := Ideal) x0 x1 (ix5 b co ci y x')
      = tap (signPad x0) (fun j => Ideal.sign (x1 j)) b co ci y x' 0 2 := by
  have hX : idx_main_v26 (idx_main_v27 (idx_main_v31 (ix5 b co ci y x')))
      = ix4 b ci (⟨y.val + 0, by omega⟩ : Fin 34) (⟨x'.val + 2, by omega⟩ : Fin 34) := by
    funext a
    exact Fin.ext (by
      match a with
      | ⟨0, _⟩ => rfl
      | ⟨1, _⟩ => rfl
      | ⟨2, _⟩ => show y.val = y.val + 0; omega
      | ⟨3, _⟩ => show 2 + x'.val = x'.val + 2; omega)
  have hW : idx_main_v28 (idx_main_v29 (idx_main_v30 (idx_main_v32 (ix5 b co ci y x'))))
      = ix4 co (0 : Fin 3) (2 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v33_apply, val_main_v31_apply, val_main_v27_apply, val_main_v26_apply, hX,
    val_main_v32_apply, val_main_v30_apply, val_main_v29_apply, val_main_v28_apply, hW, v6_eq x0 hx, v5_eq x1 hw]
  rfl

/-- The product stage of tap (1, 0) at (b, co, ci, y, x'): the padded sign at (y + 1, x' + 0) of channel ci times the sign of w[co, 1, 0, ci]. -/
theorem v42_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v42 (F := Ideal) x0 x1 (ix5 b co ci y x')
      = tap (signPad x0) (fun j => Ideal.sign (x1 j)) b co ci y x' 1 0 := by
  have hX : idx_main_v35 (idx_main_v36 (idx_main_v40 (ix5 b co ci y x')))
      = ix4 b ci (⟨y.val + 1, by omega⟩ : Fin 34) (⟨x'.val + 0, by omega⟩ : Fin 34) := by
    funext a
    exact Fin.ext (by
      match a with
      | ⟨0, _⟩ => rfl
      | ⟨1, _⟩ => rfl
      | ⟨2, _⟩ => show 1 + y.val = y.val + 1; omega
      | ⟨3, _⟩ => show x'.val = x'.val + 0; omega)
  have hW : idx_main_v37 (idx_main_v38 (idx_main_v39 (idx_main_v41 (ix5 b co ci y x'))))
      = ix4 co (1 : Fin 3) (0 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v42_apply, val_main_v40_apply, val_main_v36_apply, val_main_v35_apply, hX,
    val_main_v41_apply, val_main_v39_apply, val_main_v38_apply, val_main_v37_apply, hW, v6_eq x0 hx, v5_eq x1 hw]
  rfl

/-- The product stage of tap (1, 1) at (b, co, ci, y, x'): the padded sign at (y + 1, x' + 1) of channel ci times the sign of w[co, 1, 1, ci]. -/
theorem v51_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v51 (F := Ideal) x0 x1 (ix5 b co ci y x')
      = tap (signPad x0) (fun j => Ideal.sign (x1 j)) b co ci y x' 1 1 := by
  have hX : idx_main_v44 (idx_main_v45 (idx_main_v49 (ix5 b co ci y x')))
      = ix4 b ci (⟨y.val + 1, by omega⟩ : Fin 34) (⟨x'.val + 1, by omega⟩ : Fin 34) := by
    funext a
    exact Fin.ext (by
      match a with
      | ⟨0, _⟩ => rfl
      | ⟨1, _⟩ => rfl
      | ⟨2, _⟩ => show 1 + y.val = y.val + 1; omega
      | ⟨3, _⟩ => show 1 + x'.val = x'.val + 1; omega)
  have hW : idx_main_v46 (idx_main_v47 (idx_main_v48 (idx_main_v50 (ix5 b co ci y x'))))
      = ix4 co (1 : Fin 3) (1 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v51_apply, val_main_v49_apply, val_main_v45_apply, val_main_v44_apply, hX,
    val_main_v50_apply, val_main_v48_apply, val_main_v47_apply, val_main_v46_apply, hW, v6_eq x0 hx, v5_eq x1 hw]
  rfl

/-- The product stage of tap (1, 2) at (b, co, ci, y, x'): the padded sign at (y + 1, x' + 2) of channel ci times the sign of w[co, 1, 2, ci]. -/
theorem v60_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v60 (F := Ideal) x0 x1 (ix5 b co ci y x')
      = tap (signPad x0) (fun j => Ideal.sign (x1 j)) b co ci y x' 1 2 := by
  have hX : idx_main_v53 (idx_main_v54 (idx_main_v58 (ix5 b co ci y x')))
      = ix4 b ci (⟨y.val + 1, by omega⟩ : Fin 34) (⟨x'.val + 2, by omega⟩ : Fin 34) := by
    funext a
    exact Fin.ext (by
      match a with
      | ⟨0, _⟩ => rfl
      | ⟨1, _⟩ => rfl
      | ⟨2, _⟩ => show 1 + y.val = y.val + 1; omega
      | ⟨3, _⟩ => show 2 + x'.val = x'.val + 2; omega)
  have hW : idx_main_v55 (idx_main_v56 (idx_main_v57 (idx_main_v59 (ix5 b co ci y x'))))
      = ix4 co (1 : Fin 3) (2 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v60_apply, val_main_v58_apply, val_main_v54_apply, val_main_v53_apply, hX,
    val_main_v59_apply, val_main_v57_apply, val_main_v56_apply, val_main_v55_apply, hW, v6_eq x0 hx, v5_eq x1 hw]
  rfl

/-- The product stage of tap (2, 0) at (b, co, ci, y, x'): the padded sign at (y + 2, x' + 0) of channel ci times the sign of w[co, 2, 0, ci]. -/
theorem v69_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v69 (F := Ideal) x0 x1 (ix5 b co ci y x')
      = tap (signPad x0) (fun j => Ideal.sign (x1 j)) b co ci y x' 2 0 := by
  have hX : idx_main_v62 (idx_main_v63 (idx_main_v67 (ix5 b co ci y x')))
      = ix4 b ci (⟨y.val + 2, by omega⟩ : Fin 34) (⟨x'.val + 0, by omega⟩ : Fin 34) := by
    funext a
    exact Fin.ext (by
      match a with
      | ⟨0, _⟩ => rfl
      | ⟨1, _⟩ => rfl
      | ⟨2, _⟩ => show 2 + y.val = y.val + 2; omega
      | ⟨3, _⟩ => show x'.val = x'.val + 0; omega)
  have hW : idx_main_v64 (idx_main_v65 (idx_main_v66 (idx_main_v68 (ix5 b co ci y x'))))
      = ix4 co (2 : Fin 3) (0 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v69_apply, val_main_v67_apply, val_main_v63_apply, val_main_v62_apply, hX,
    val_main_v68_apply, val_main_v66_apply, val_main_v65_apply, val_main_v64_apply, hW, v6_eq x0 hx, v5_eq x1 hw]
  rfl

/-- The product stage of tap (2, 1) at (b, co, ci, y, x'): the padded sign at (y + 2, x' + 1) of channel ci times the sign of w[co, 2, 1, ci]. -/
theorem v78_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v78 (F := Ideal) x0 x1 (ix5 b co ci y x')
      = tap (signPad x0) (fun j => Ideal.sign (x1 j)) b co ci y x' 2 1 := by
  have hX : idx_main_v71 (idx_main_v72 (idx_main_v76 (ix5 b co ci y x')))
      = ix4 b ci (⟨y.val + 2, by omega⟩ : Fin 34) (⟨x'.val + 1, by omega⟩ : Fin 34) := by
    funext a
    exact Fin.ext (by
      match a with
      | ⟨0, _⟩ => rfl
      | ⟨1, _⟩ => rfl
      | ⟨2, _⟩ => show 2 + y.val = y.val + 2; omega
      | ⟨3, _⟩ => show 1 + x'.val = x'.val + 1; omega)
  have hW : idx_main_v73 (idx_main_v74 (idx_main_v75 (idx_main_v77 (ix5 b co ci y x'))))
      = ix4 co (2 : Fin 3) (1 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v78_apply, val_main_v76_apply, val_main_v72_apply, val_main_v71_apply, hX,
    val_main_v77_apply, val_main_v75_apply, val_main_v74_apply, val_main_v73_apply, hW, v6_eq x0 hx, v5_eq x1 hw]
  rfl

/-- The product stage of tap (2, 2) at (b, co, ci, y, x'): the padded sign at (y + 2, x' + 2) of channel ci times the sign of w[co, 2, 2, ci]. -/
theorem v87_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v87 (F := Ideal) x0 x1 (ix5 b co ci y x')
      = tap (signPad x0) (fun j => Ideal.sign (x1 j)) b co ci y x' 2 2 := by
  have hX : idx_main_v80 (idx_main_v81 (idx_main_v85 (ix5 b co ci y x')))
      = ix4 b ci (⟨y.val + 2, by omega⟩ : Fin 34) (⟨x'.val + 2, by omega⟩ : Fin 34) := by
    funext a
    exact Fin.ext (by
      match a with
      | ⟨0, _⟩ => rfl
      | ⟨1, _⟩ => rfl
      | ⟨2, _⟩ => show 2 + y.val = y.val + 2; omega
      | ⟨3, _⟩ => show 2 + x'.val = x'.val + 2; omega)
  have hW : idx_main_v82 (idx_main_v83 (idx_main_v84 (idx_main_v86 (ix5 b co ci y x'))))
      = ix4 co (2 : Fin 3) (2 : Fin 3) ci := by
    funext a
    exact Fin.ext (by
      match a with
      | ⟨0, _⟩ => show (co.val * 64 + ci.val) / 64 = co.val; omega
      | ⟨1, _⟩ => rfl
      | ⟨2, _⟩ => rfl
      | ⟨3, _⟩ => show (co.val * 64 + ci.val) % 64 = ci.val; omega)
  rw [val_main_v87_apply, val_main_v85_apply, val_main_v81_apply, val_main_v80_apply, hX,
    val_main_v86_apply, val_main_v84_apply, val_main_v83_apply, val_main_v82_apply, hW, v6_eq x0 hx, v5_eq x1 hw]
  rfl

/-! ## The window's sum, its sign, and the sum over the input channels -/

/-- The running sum starts from zero and adds the nine products in the order of the taps: it is the window's nine-term sum. -/
theorem v88_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v88 (F := Ideal) x0 x1 (ix5 b co ci y x')
      = tapSum (signPad x0) (fun j => Ideal.sign (x1 j)) b co ci y x' := by
  have h7 : val_main_v7 (F := Ideal) (ix5 b co ci y x') = 0 := by
    rw [val_main_v7_apply]
    exact Ideal.ofBits_zero_f32
  show val_main_v7 (F := Ideal) (ix5 b co ci y x') + val_main_v15 (F := Ideal) x0 x1 (ix5 b co ci y x')
      + val_main_v24 (F := Ideal) x0 x1 (ix5 b co ci y x')
      + val_main_v33 (F := Ideal) x0 x1 (ix5 b co ci y x')
      + val_main_v42 (F := Ideal) x0 x1 (ix5 b co ci y x')
      + val_main_v51 (F := Ideal) x0 x1 (ix5 b co ci y x')
      + val_main_v60 (F := Ideal) x0 x1 (ix5 b co ci y x')
      + val_main_v69 (F := Ideal) x0 x1 (ix5 b co ci y x')
      + val_main_v78 (F := Ideal) x0 x1 (ix5 b co ci y x')
      + val_main_v87 (F := Ideal) x0 x1 (ix5 b co ci y x') = _
  rw [h7, zero_add, v15_ix5 x0 x1 hx hw,
    v24_ix5 x0 x1 hx hw,
    v33_ix5 x0 x1 hx hw,
    v42_ix5 x0 x1 hx hw,
    v51_ix5 x0 x1 hx hw,
    v60_ix5 x0 x1 hx hw,
    v69_ix5 x0 x1 hx hw,
    v78_ix5 x0 x1 hx hw,
    v87_ix5 x0 x1 hx hw]
  rfl

/-- The second binarization: the nine-term sum is a real, so v + (sign v - v) is its sign. -/
theorem v91_ix5 (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal))
    (b : Fin 16) (co ci : Fin 64) (y x' : Fin 32) :
    val_main_v91 (F := Ideal) x0 x1 (ix5 b co ci y x')
      = Ideal.sign (tapSum (signPad x0) (fun j => Ideal.sign (x1 j)) b co ci y x') := by
  show val_main_v88 (F := Ideal) x0 x1 (ix5 b co ci y x')
      + (Ideal.sign (val_main_v88 (F := Ideal) x0 x1 (ix5 b co ci y x')) - val_main_v88 (F := Ideal) x0 x1 (ix5 b co ci y x')) = _
  rw [v88_ix5 x0 x1 hx hw]
  exact add_sign_sub_self_of_isReal _ (tapSum_isReal x0 x1 b co ci y x')

/-- On real arguments the reference's result is the majority convolution of the specification. -/
theorem ref_is_G (x0 : (⟨S16x64x32x32, .f32⟩ : BufTy).Contents (Elt Ideal)) (x1 : (⟨S64x3x3x64, .f32⟩ : BufTy).Contents (Elt Ideal)) (hx : ∀ i, ∃ r : ℝ, x0 i = (r : EReal)) (hw : ∀ i, ∃ r : ℝ, x1 i = (r : EReal)) :
    val_main_v92 (F := Ideal) x0 x1 = G x0 x1 := by
  funext i
  obtain ⟨b, co, y, x', rfl⟩ : ∃ (b : Fin 16) (co : Fin 64) (y x' : Fin 32), i = ix4 b co y x' :=
    ⟨i 0, i 1, i 2, i 3, eq_ix4 i⟩
  have h0 : ∀ j, val_main_cst_0 (F := Ideal) j = 0 := fun _ => Ideal.ofBits_zero_f32
  rw [val_main_v92_apply, h0, zero_add, G_ix4]
  unfold voteSum
  refine Finset.sum_congr rfl fun k _ => ?_
  have hk : idx_main_v92 (ix4 b co y x') k = ix5 b co k y x' := by
    funext a
    exact Fin.ext (by
      match a with
      | ⟨0, _⟩ => rfl
      | ⟨1, _⟩ => rfl
      | ⟨2, _⟩ => rfl
      | ⟨3, _⟩ => rfl
      | ⟨4, _⟩ => rfl)
  rw [hk]
  exact v91_ix5 x0 x1 hx hw b co k y x'

end Cert.ReferenceIdeal.RefValue

end
-- ==== Proof.KernelRows.lean ====
/-
  What the kernel's body leaves in its output block, row by row.

  The body runs a loop of 64 trips; trip k loads row k of the signed weight (nine taps by 64 input channels),
  computes one row of 1024 lanes from it and from the padded input block, and stores that row as row k of the
  [1, 64, 1024] output block. The 64 stored rows tile the block, each row is written once, and row k depends on k
  only through the weight row it loads. So the block the body leaves is one function of the two input blocks:
  at (0, k, p) it is lane p of the row computed from weight row k.
-/
import proofs.«150547_j66314295050711_2_alg».proof.Proof.Gen.KernelIdeal.Frame
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.ValueIdx Idealize.SL.Sem
open Cert.KernelIdeal Cert.KernelIdeal.Gen

variable {F : FTy → Type} [FloatOps F]

/-- The loop makes 64 trips. -/
theorem trips_eq : k0_t1_loop.trips = 64 := by decide

/-- Row k of the weight block, as the body loads it: a [1, 9, 64] slab. -/
def weightRow (x1 : Vec F S64x9x64 .bf16) (k : Fin k0_t1_loop.trips) : Vec F S1x9x64 .bf16 :=
  View.ld x1 (Rect.unit (s := S64x9x64) (k0_off1 k) S1x9x64.size (k0_off1_inb k))

/-- The row of 1024 lanes that trip k computes and stores, from the padded input block and weight row k. -/
def storedRow (x0 : Vec F S1x64x34x34 .f32) (x1 : Vec F S64x9x64 .bf16) (k : Fin k0_t1_loop.trips) : FVec F S1x1x1024 .f32 :=
  k0_pay10 x0 (k0_pay12 (k0_pay2 x0) (k0_pay3 x0) (k0_pay4 x0) (k0_pay5 x0) (k0_pay6 x0) (k0_pay7 x0) (k0_pay8 x0) (k0_pay9 x0)
    (weightRow x1 k)) (k0_pay13 (weightRow x1 k))

theorem zero4 : (![0, 0, 0, 0] : Fin 4 → Nat) = fun _ => 0 := funext fun a => by fin_cases a <;> rfl

/-- What the body reads back through a whole staging buffer holding x is x. -/
theorem read_whole_input (arg1 : Memref sig .tc .vmem S1x64x34x34 .f32) (harg1 : arg1.IsWhole) (x0 : Vec F S1x64x34x34 .f32) :
    View.readAt (Elt F) arg1.view (Rect.unit (s := S1x64x34x34) ![0, 0, 0, 0] S1x64x34x34.size inb_S1x64x34x34_S1x64x34x34_0_0_0_0).toLoadRect (harg1.unread x0) = x0 := by
  rw [View.readAt_eq_ld, harg1.read_unread]
  exact View.ld_unit_zero zero4 _ x0

/-- What the body loads of weight row k through a whole staging buffer holding x1 is that row of x1. -/
theorem read_weight_row (arg2 : Memref sig .tc .vmem S64x9x64 .bf16) (harg2 : arg2.IsWhole) (x1 : Vec F S64x9x64 .bf16) (k : Fin k0_t1_loop.trips) :
    View.readAt (Elt F) arg2.view (Rect.unit (s := S64x9x64) (k0_off1 k) S1x9x64.size (k0_off1_inb k)).toLoadRect (harg2.unread x1) = weightRow x1 k := by
  rw [View.readAt_eq_ld, harg2.read_unread]; rfl

/-- One trip's stores: the single row k, holding the row computed from weight row k. -/
theorem tripL_eq (𝒱 : Variants) (bd : Option 𝒱.V) (c : Dev nD) (i : grid0.Coords) (arg1 : Memref sig .tc .vmem S1x64x34x34 .f32) (harg1 : arg1.IsWhole) (arg2 : Memref sig .tc .vmem S64x9x64 .bf16) (harg2 : arg2.IsWhole) (arg3 : Memref sig .tc .vmem S1x64x1024 .f32) (harg3 : arg3.IsWhole)
    (x0 : Vec F S1x64x34x34 .f32) (x1 : Vec F S64x9x64 .bf16) (k : Fin k0_t1_loop.trips) :
    tripL_k0_t1 (F := F) 𝒱 c bd i arg1 harg1 arg2 harg2 arg3 harg3 x0 (harg2.unread x1) k
      = [(⟨Rect.unit (s := S1x64x1024) (k0_off2 k) S1x1x1024.size (k0_off2_inb k), storedRow x0 x1 k⟩ : View.Piece (Elt F) S1x64x1024 .f32)] := by
  show (trip_k0_t1 (F := F) 𝒱 c bd i arg1 harg1 arg2 harg2 arg3 harg3 x0 (harg2.unread x1) k).1 = _
  unfold trip_k0_t1
  dsimp only
  unfold trip_k0_t1.sl.r trip_k0_t1.sl.r_1 storedRow
  rw [read_weight_row]

/-- A store made during the first n trips was made by one of them. -/
theorem mem_pb (𝒱 : Variants) (bd : Option 𝒱.V) (c : Dev nD) (i : grid0.Coords) (arg1 : Memref sig .tc .vmem S1x64x34x34 .f32) (harg1 : arg1.IsWhole) (arg2 : Memref sig .tc .vmem S64x9x64 .bf16) (harg2 : arg2.IsWhole) (arg3 : Memref sig .tc .vmem S1x64x1024 .f32) (harg3 : arg3.IsWhole)
    (v0 : Vec F S1x64x34x34 .f32) (X : BufTy.Contents (Elt F) arg2.view.ty) :
    ∀ (n : ℕ) (_ : n ≤ k0_t1_loop.trips) (p : View.Piece (Elt F) S1x64x1024 .f32),
      p ∈ pb_k0_t1 (F := F) 𝒱 c bd i arg1 harg1 arg2 harg2 arg3 harg3 v0 X n →
      ∃ k : Fin k0_t1_loop.trips, p ∈ tripL_k0_t1 (F := F) 𝒱 c bd i arg1 harg1 arg2 harg2 arg3 harg3 v0 X k
  | 0, _, p, hp => by rw [pb_k0_t1.eq_1] at hp; exact absurd hp List.not_mem_nil
  | n + 1, hn, p, hp => by
    have hlt : n < k0_t1_loop.trips := hn
    have e := pb_k0_t1_succ (F := F) 𝒱 c bd i arg1 harg1 arg2 harg2 arg3 harg3 v0 X ⟨n, hlt⟩
    rw [show (⟨n, hlt⟩ : Fin k0_t1_loop.trips).val + 1 = n + 1 from rfl] at e
    rw [e] at hp
    rcases List.mem_append.mp hp with h | h
    · exact ⟨⟨n, hlt⟩, h⟩
    · exact mem_pb 𝒱 bd c i arg1 harg1 arg2 harg2 arg3 harg3 v0 X n (Nat.le_of_lt hlt) p h

/-- The whole block the 64 rows make up, as one function of the two input blocks: at (0, k, p), lane p of row k. -/
def blockOf (x0 : Vec F S1x64x34x34 .f32) (x1 : Vec F S64x9x64 .bf16) : S1x64x1024.Idx → Elt F .f32 :=
  fun y => storedRow x0 x1 (Fin.cast trips_eq.symm (y 1)) (ix3 (0 : Fin 1) (0 : Fin 1) (y 2))

/-- Every store of the body's run is a block of that one function: the row it holds is the function's row k. -/
theorem pieces_agree (c : Dev nD) (i : grid0.Coords) (arg1 : Memref sig .tc .vmem S1x64x34x34 .f32) (harg1 : arg1.IsWhole) (arg2 : Memref sig .tc .vmem S64x9x64 .bf16) (harg2 : arg2.IsWhole) (arg3 : Memref sig .tc .vmem S1x64x1024 .f32) (harg3 : arg3.IsWhole)
    (x0 : Vec F S1x64x34x34 .f32) (x1 : Vec F S64x9x64 .bf16) :
    ∀ p ∈ (kernelRun0_A c i arg1 harg1 arg2 harg2 arg3 harg3 x0 x1).1, ∀ x : p.1.shape.Idx, p.2 x = blockOf x0 x1 (p.1.emb x) := by
  intro p hp x
  have hp' : p ∈ pb_k0_t1 (F := F) Variants.none c none i arg1 harg1 arg2 harg2 arg3 harg3 x0 (harg2.unread x1) k0_t1_loop.trips := by
    have h := hp
    unfold kernelRun0_A at h
    dsimp only at h
    rw [read_whole_input] at h
    exact h
  obtain ⟨k, hk⟩ := mem_pb Variants.none none c i arg1 harg1 arg2 harg2 arg3 harg3 x0 (harg2.unread x1) k0_t1_loop.trips (Nat.le_refl _) p hp'
  rw [tripL_eq] at hk
  obtain rfl := List.mem_singleton.mp hk
  have hrow : k0_off2 k 1 = k.val := by rw [k0_off2_eq]; rfl
  have hlane : k0_off2 k 2 = 0 := by rw [k0_off2_eq]; rfl
  show storedRow x0 x1 k x = blockOf x0 x1 ((Rect.unit (s := S1x64x1024) (k0_off2 k) S1x1x1024.size (k0_off2_inb k)).emb x)
  unfold blockOf
  have e1 : Fin.cast trips_eq.symm ((Rect.unit (s := S1x64x1024) (k0_off2 k) S1x1x1024.size (k0_off2_inb k)).emb x 1) = k := by
    apply Fin.ext
    show k0_off2 k 1 + 1 * (x 1).val = k.val
    have h1 : (x 1).val < 1 := (x 1).isLt
    omega
  have e2 : (ix3 (0 : Fin 1) (0 : Fin 1) ((Rect.unit (s := S1x64x1024) (k0_off2 k) S1x1x1024.size (k0_off2_inb k)).emb x 2) : S1x1x1024.Idx) = x := by
    funext a
    match a with
    | ⟨0, _⟩ => exact Fin.ext (by have h0 : (x 0).val < 1 := (x 0).isLt; show 0 = (x 0).val; omega)
    | ⟨1, _⟩ => exact Fin.ext (by have h1 : (x 1).val < 1 := (x 1).isLt; show 0 = (x 1).val; omega)
    | ⟨2, _⟩ => exact Fin.ext (by show k0_off2 k 2 + 1 * (x 2).val = (x 2).val; omega)
  rw [e1, e2]

/-- THE BLOCK THE BODY LEAVES: the 64 stored rows read back are that one function of the input blocks. -/
theorem out_eq_blockOf (c : Dev nD) (i : grid0.Coords) (arg1 : Memref sig .tc .vmem S1x64x34x34 .f32) (harg1 : arg1.IsWhole) (arg2 : Memref sig .tc .vmem S64x9x64 .bf16) (harg2 : arg2.IsWhole) (arg3 : Memref sig .tc .vmem S1x64x1024 .f32) (harg3 : arg3.IsWhole)
    (x0 : Vec F S1x64x34x34 .f32) (x1 : Vec F S64x9x64 .bf16) :
    out0_A_2 c i arg1 harg1 arg2 harg2 arg3 harg3 x0 x1 = blockOf x0 x1 := by
  unfold out0_A_2
  rw [View.read_writes_eq_canon _ _ _ (cover0_A_2 c i arg1 harg1 arg2 harg2 arg3 harg3 x0 x1)]
  funext y
  exact View.canon_apply_of_pieces (blockOf x0 x1) _ (pieces_agree c i arg1 harg1 arg2 harg2 arg3 harg3 x0 x1) y (cover0_A_2 c i arg1 harg1 arg2 harg2 arg3 harg3 x0 x1 y)

end Cert.KernelIdeal.Rows

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.PayloadAt.lean ====
/-
  What one trip of the kernel's loop stores, read at a lane.

  One trip handles one output channel co. The padded input block v0 of one batch entry is turned into its signs; the
  nine 32 x 32 windows of the sign array at the offsets (dy, dx), dy, dx = 0, 1, 2, are laid out as 64 x 1024 matrices,
  row ci, lane y * 32 + x'; row co of the weight gives, for tap t = 3 * dy + dx, a column of 64 numbers, one per input
  channel. At (ci, lane) the nine products window * tap are added, in the order of the taps and starting from zero, the
  sign of the sum is taken, and the 64 signs of a lane are added up. So the number stored at lane y * 32 + x' is the sum
  over ci of the sign of the nine-term sum of  sign v0[0, ci, y + dy, x' + dx] * v33[0, t, ci].
-/
import proofs.«150547_j66314295050711_2_alg».proof.Proof.Gen.KernelIdeal.Skeleton
import proofs.«150547_j66314295050711_2_alg».proof.Proof.MajoritySpec
import proofs.«150547_j66314295050711_2_alg».proof.Proof.LibKeepdims
import proofs.«150547_j66314295050711_2_alg».proof.Proof.LibMinOps
import Idealize.ShloMosaic.Lib.ValueIdx
import Idealize.ShloMosaic.Lib.Pipeline.Value
import Idealize.ShloMosaic.Lib.ValueLayout

noncomputable section

namespace Cert.MajorityConv.PayloadAt

open Idealize.ShloMosaic Idealize.ShloMosaic.ValueIdx
open Cert.KernelIdeal Cert.KernelIdeal.Gen
open scoped BigOperators

/-- The bf16 pattern of zero is the extended real zero. -/
theorem ofBits_zero_bf16 : Ideal.ofBits .bf16 0x0000#16 = (0 : EReal) := by
  simp [Ideal.ofBits, Ideal.ieee]

/-! ## The sign array -/

/-- The first payload at (ci, a, c) is the sign of the block's entry (0, ci, a, c): the select on |v| > 0 between the
    unit carrying v's sign and v itself is the sign of v at every extended real, and dropping the leading unit axis keeps
    the row-major position. -/
theorem pay1_apply (v0 : Vec Ideal S1x64x34x34 .f32) (ci : Fin 64) (a c : Fin 34) :
    k0_pay1 v0 (ix3 ci a c) = Ideal.sign (v0 (ix4 (0 : Fin 1) ci a c)) :=
  (Ideal.jnp_sign_eq_sign_f32 (shapeCast S64x34x34 v0 shapeCasts_S1x64x34x34_S64x34x34 (ix3 ci a c))).trans
    (congrArg Ideal.sign (shapeCast_1abc_abc_apply v0 shapeCasts_S1x64x34x34_S64x34x34 ci a c))

/-! ## A window of the sign array, as a 64 x 1024 matrix -/

/-- The 32 x 32 window at the offset (dy, dx) of a [64, 34, 34] array, laid out as [64, 1024]: row ci, lane y * 32 + x'
    is the array at (ci, y + dy, x' + dx). -/
theorem window_apply (dy dx : ℕ) (hdy : dy ≤ 2) (hdx : dx ≤ 2) (P : FVec Ideal S64x34x34 .bf16)
    (hs : S64x34x34.Slices ![0, dy, dx] S64x32x32) (ci : Fin 64) (y x' : Fin 32) :
    shapeCast S64x1024 (extractStridedSlice S64x32x32 ![0, dy, dx] P hs) shapeCasts_S64x32x32_S64x1024
        (ix2 ci (⟨y.val * 32 + x'.val, by omega⟩ : Fin 1024))
      = P (ix3 ci (⟨y.val + dy, by omega⟩ : Fin 34) (⟨x'.val + dx, by omega⟩ : Fin 34)) := by
  refine (shapeCast_apply _ shapeCasts_S64x32x32_S64x1024 _ (ix3 ci y x') ?_).trans ?_
  · rw [Shape.rowMajor_val_three, Shape.rowMajor_val_two]
    show (ci.val * 32 + y.val) * 32 + x'.val = ci.val * 1024 + (y.val * 32 + x'.val)
    omega
  · refine extractStridedSlice_apply _ P hs (ix3 ci y x') _ fun ax => ?_
    match ax with
    | ⟨0, _⟩ => show ci.val = 0 + ci.val; omega
    | ⟨1, _⟩ => show y.val + dy = dy + y.val; omega
    | ⟨2, _⟩ => show x'.val + dx = dx + x'.val; omega

/-- The window at the offset (0, 0). -/
theorem pay2_apply (v0 : Vec Ideal S1x64x34x34 .f32) (ci : Fin 64) (y x' : Fin 32) :
    k0_pay2 v0 (ix2 ci (⟨y.val * 32 + x'.val, by omega⟩ : Fin 1024))
      = Ideal.sign (v0 (ix4 (0 : Fin 1) ci (⟨y.val + 0, by omega⟩ : Fin 34) (⟨x'.val + 0, by omega⟩ : Fin 34))) :=
  (window_apply 0 0 (by omega) (by omega) (k0_pay1 v0) slices_S64x34x34_o0_0_0_S64x32x32 ci y x').trans (pay1_apply v0 ci _ _)

/-- The window at the offset (0, 1). -/
theorem pay3_apply (v0 : Vec Ideal S1x64x34x34 .f32) (ci : Fin 64) (y x' : Fin 32) :
    k0_pay3 v0 (ix2 ci (⟨y.val * 32 + x'.val, by omega⟩ : Fin 1024))
      = Ideal.sign (v0 (ix4 (0 : Fin 1) ci (⟨y.val + 0, by omega⟩ : Fin 34) (⟨x'.val + 1, by omega⟩ : Fin 34))) :=
  (window_apply 0 1 (by omega) (by omega) (k0_pay1 v0) slices_S64x34x34_o0_0_1_S64x32x32 ci y x').trans (pay1_apply v0 ci _ _)

/-- The window at the offset (0, 2). -/
theorem pay4_apply (v0 : Vec Ideal S1x64x34x34 .f32) (ci : Fin 64) (y x' : Fin 32) :
    k0_pay4 v0 (ix2 ci (⟨y.val * 32 + x'.val, by omega⟩ : Fin 1024))
      = Ideal.sign (v0 (ix4 (0 : Fin 1) ci (⟨y.val + 0, by omega⟩ : Fin 34) (⟨x'.val + 2, by omega⟩ : Fin 34))) :=
  (window_apply 0 2 (by omega) (by omega) (k0_pay1 v0) slices_S64x34x34_o0_0_2_S64x32x32 ci y x').trans (pay1_apply v0 ci _ _)

/-- The window at the offset (1, 0). -/
theorem pay5_apply (v0 : Vec Ideal S1x64x34x34 .f32) (ci : Fin 64) (y x' : Fin 32) :
    k0_pay5 v0 (ix2 ci (⟨y.val * 32 + x'.val, by omega⟩ : Fin 1024))
      = Ideal.sign (v0 (ix4 (0 : Fin 1) ci (⟨y.val + 1, by omega⟩ : Fin 34) (⟨x'.val + 0, by omega⟩ : Fin 34))) :=
  (window_apply 1 0 (by omega) (by omega) (k0_pay1 v0) slices_S64x34x34_o0_1_0_S64x32x32 ci y x').trans (pay1_apply v0 ci _ _)

/-- The window at the offset (1, 1). -/
theorem pay6_apply (v0 : Vec Ideal S1x64x34x34 .f32) (ci : Fin 64) (y x' : Fin 32) :
    k0_pay6 v0 (ix2 ci (⟨y.val * 32 + x'.val, by omega⟩ : Fin 1024))
      = Ideal.sign (v0 (ix4 (0 : Fin 1) ci (⟨y.val + 1, by omega⟩ : Fin 34) (⟨x'.val + 1, by omega⟩ : Fin 34))) :=
  (window_apply 1 1 (by omega) (by omega) (k0_pay1 v0) slices_S64x34x34_o0_1_1_S64x32x32 ci y x').trans (pay1_apply v0 ci _ _)

/-- The window at the offset (1, 2). -/
theorem pay7_apply (v0 : Vec Ideal S1x64x34x34 .f32) (ci : Fin 64) (y x' : Fin 32) :
    k0_pay7 v0 (ix2 ci (⟨y.val * 32 + x'.val, by omega⟩ : Fin 1024))
      = Ideal.sign (v0 (ix4 (0 : Fin 1) ci (⟨y.val + 1, by omega⟩ : Fin 34) (⟨x'.val + 2, by omega⟩ : Fin 34))) :=
  (window_apply 1 2 (by omega) (by omega) (k0_pay1 v0) slices_S64x34x34_o0_1_2_S64x32x32 ci y x').trans (pay1_apply v0 ci _ _)

/-- The window at the offset (2, 0). -/
theorem pay8_apply (v0 : Vec Ideal S1x64x34x34 .f32) (ci : Fin 64) (y x' : Fin 32) :
    k0_pay8 v0 (ix2 ci (⟨y.val * 32 + x'.val, by omega⟩ : Fin 1024))
      = Ideal.sign (v0 (ix4 (0 : Fin 1) ci (⟨y.val + 2, by omega⟩ : Fin 34) (⟨x'.val + 0, by omega⟩ : Fin 34))) :=
  (window_apply 2 0 (by omega) (by omega) (k0_pay1 v0) slices_S64x34x34_o0_2_0_S64x32x32 ci y x').trans (pay1_apply v0 ci _ _)

/-- The window at the offset (2, 1). -/
theorem pay9_apply (v0 : Vec Ideal S1x64x34x34 .f32) (ci : Fin 64) (y x' : Fin 32) :
    k0_pay9 v0 (ix2 ci (⟨y.val * 32 + x'.val, by omega⟩ : Fin 1024))
      = Ideal.sign (v0 (ix4 (0 : Fin 1) ci (⟨y.val + 2, by omega⟩ : Fin 34) (⟨x'.val + 1, by omega⟩ : Fin 34))) :=
  (window_apply 2 1 (by omega) (by omega) (k0_pay1 v0) slices_S64x34x34_o0_2_1_S64x32x32 ci y x').trans (pay1_apply v0 ci _ _)

/-! ## A tap of the weight row, as a 64 x 1024 matrix -/

/-- Row o of the [9, 64] tap table, turned into a column of 64 entries and repeated along the 1024 lanes: at (ci, p) it is
    the weight row's entry (0, o, ci). -/
theorem tapColumn_apply (v33 : Vec Ideal S1x9x64 .bf16) (o : ℕ) (hs : S9x64.Slices ![o, 0] S1x64) (t : Fin 9) (ht : t.val = o)
    (ci : Fin 64) (p : Fin 1024) :
    broadcastTo S64x1024 (shapeCast S64x1 (shapeCast S64 (extractStridedSlice S1x64 ![o, 0] (k0_pay11 v33) hs)
        shapeCasts_S1x64_S64) shapeCasts_S64_S64x1) broadcasts_S64x1_S64x1024 (ix2 ci p)
      = v33 (ix3 (0 : Fin 1) t ci) := by
  refine (Cert.Keepdims.broadcastTo_a1_ab_apply _ broadcasts_S64x1_S64x1024 ci p).trans ?_
  refine (Cert.Keepdims.shapeCast_a_a1_apply _ shapeCasts_S64_S64x1 ci (0 : Fin 1)).trans ?_
  refine (shapeCast_1a_a_apply _ shapeCasts_S1x64_S64 ci).trans ?_
  refine (slice2_axis0_apply o (k0_pay11 v33) hs (0 : Fin 1) ci t (by show t.val = o + 0; omega)).trans ?_
  exact shapeCast_1ab_ab_apply v33 shapeCasts_S1x9x64_S9x64 t ci

/-- The ninth tap's column. -/
theorem pay13_apply (v33 : Vec Ideal S1x9x64 .bf16) (ci : Fin 64) (p : Fin 1024) :
    k0_pay13 v33 (ix2 ci p) = v33 (ix3 (0 : Fin 1) (8 : Fin 9) ci) :=
  tapColumn_apply v33 8 slices_S9x64_o8_0_S1x64 (8 : Fin 9) rfl ci p

/-! ## The first eight products, added up -/

/-- Equal summands give equal eight-term sums. -/
theorem eightSum_congr {z z' a0 a1 a2 a3 a4 a5 a6 a7 w0 w1 w2 w3 w4 w5 w6 w7 u0 u1 u2 u3 u4 u5 u6 u7 : EReal}
    (hz : z = z') (h0 : w0 = u0) (h1 : w1 = u1) (h2 : w2 = u2) (h3 : w3 = u3) (h4 : w4 = u4) (h5 : w5 = u5)
    (h6 : w6 = u6) (h7 : w7 = u7) :
    z + a0 * w0 + a1 * w1 + a2 * w2 + a3 * w3 + a4 * w4 + a5 * w5 + a6 * w6 + a7 * w7
      = z' + a0 * u0 + a1 * u1 + a2 * u2 + a3 * u3 + a4 * u4 + a5 * u5 + a6 * u6 + a7 * u7 := by
  subst hz h0 h1 h2 h3 h4 h5 h6 h7; rfl

/-- The running sum after eight taps, at (ci, p): from zero, the eight products of the eight matrices with the taps 0 … 7
    of the weight row, added in that order. -/
theorem pay12_apply (P0 P1 P2 P3 P4 P5 P6 P7 : FVec Ideal S64x1024 .bf16) (v33 : Vec Ideal S1x9x64 .bf16)
    (ci : Fin 64) (p : Fin 1024) :
    k0_pay12 P0 P1 P2 P3 P4 P5 P6 P7 v33 (ix2 ci p)
      = 0 + P0 (ix2 ci p) * v33 (ix3 (0 : Fin 1) (0 : Fin 9) ci) + P1 (ix2 ci p) * v33 (ix3 (0 : Fin 1) (1 : Fin 9) ci)
          + P2 (ix2 ci p) * v33 (ix3 (0 : Fin 1) (2 : Fin 9) ci) + P3 (ix2 ci p) * v33 (ix3 (0 : Fin 1) (3 : Fin 9) ci)
          + P4 (ix2 ci p) * v33 (ix3 (0 : Fin 1) (4 : Fin 9) ci) + P5 (ix2 ci p) * v33 (ix3 (0 : Fin 1) (5 : Fin 9) ci)
          + P6 (ix2 ci p) * v33 (ix3 (0 : Fin 1) (6 : Fin 9) ci) + P7 (ix2 ci p) * v33 (ix3 (0 : Fin 1) (7 : Fin 9) ci) :=
  eightSum_congr (a0 := P0 (ix2 ci p)) (a1 := P1 (ix2 ci p)) (a2 := P2 (ix2 ci p)) (a3 := P3 (ix2 ci p))
    (a4 := P4 (ix2 ci p)) (a5 := P5 (ix2 ci p)) (a6 := P6 (ix2 ci p)) (a7 := P7 (ix2 ci p)) ofBits_zero_bf16
    (tapColumn_apply v33 0 slices_S9x64_o0_0_S1x64 (0 : Fin 9) rfl ci p)
    (tapColumn_apply v33 1 slices_S9x64_o1_0_S1x64 (1 : Fin 9) rfl ci p)
    (tapColumn_apply v33 2 slices_S9x64_o2_0_S1x64 (2 : Fin 9) rfl ci p)
    (tapColumn_apply v33 3 slices_S9x64_o3_0_S1x64 (3 : Fin 9) rfl ci p)
    (tapColumn_apply v33 4 slices_S9x64_o4_0_S1x64 (4 : Fin 9) rfl ci p)
    (tapColumn_apply v33 5 slices_S9x64_o5_0_S1x64 (5 : Fin 9) rfl ci p)
    (tapColumn_apply v33 6 slices_S9x64_o6_0_S1x64 (6 : Fin 9) rfl ci p)
    (tapColumn_apply v33 7 slices_S9x64_o7_0_S1x64 (7 : Fin 9) rfl ci p)

/-! ## The vote of a lane -/

/-- What the trip stores at lane y * 32 + x', over any running sum v83 and ninth column v87: the sum over the input
    channels of the sign of  v83 + window(2, 2) * v87  at (ci, lane). -/
theorem pay10_apply (v0 : Vec Ideal S1x64x34x34 .f32) (v83 v87 : FVec Ideal S64x1024 .bf16) (y x' : Fin 32) :
    k0_pay10 v0 v83 v87 (ix3 (0 : Fin 1) (0 : Fin 1) (⟨y.val * 32 + x'.val, by omega⟩ : Fin 1024))
      = ∑ ci : Fin 64, Ideal.sign (v83 (ix2 ci (⟨y.val * 32 + x'.val, by omega⟩ : Fin 1024))
          + Ideal.sign (v0 (ix4 (0 : Fin 1) ci (⟨y.val + 2, by omega⟩ : Fin 34) (⟨x'.val + 2, by omega⟩ : Fin 34)))
            * v87 (ix2 ci (⟨y.val * 32 + x'.val, by omega⟩ : Fin 1024))) := by
  unfold k0_pay10
  refine (shapeCast_apply _ shapeCasts_S1024_S1x1x1024 _ (ix1 (⟨y.val * 32 + x'.val, by omega⟩ : Fin 1024)) ?_).trans ?_
  · rw [Shape.rowMajor_val_three, Shape.rowMajor_val_one]
    show y.val * 32 + x'.val = (0 * 1 + 0) * 1024 + (y.val * 32 + x'.val)
    omega
  refine (Cert.MinOps.rowsSum_apply _ _ reduces_S64x1024_S1024 _ _ (⟨y.val * 32 + x'.val, by omega⟩ : Fin 1024)).trans ?_
  refine Finset.sum_congr rfl fun ci _ => ?_
  refine (Ideal.jnp_sign_eq_sign_f32 _).trans (congrArg Ideal.sign ?_)
  exact congrArg (fun t => v83 (ix2 ci (⟨y.val * 32 + x'.val, by omega⟩ : Fin 1024)) + t * v87 (ix2 ci (⟨y.val * 32 + x'.val, by omega⟩ : Fin 1024)))
    ((window_apply 2 2 (by omega) (by omega) (k0_pay1 v0) slices_S64x34x34_o0_2_2_S64x32x32 ci y x').trans (pay1_apply v0 ci _ _))

/-! ## One trip's stored row -/

/-- The row one trip stores, at lane y * 32 + x': the sum over the input channels ci of the sign of the nine-term sum, in
    the order of the taps t = 3 * dy + dx, of  sign v0[0, ci, y + dy, x' + dx] * v33[0, t, ci]. -/
theorem storedRow_apply (v0 : Vec Ideal S1x64x34x34 .f32) (v33 : Vec Ideal S1x9x64 .bf16) (y x' : Fin 32) :
    k0_pay10 v0 (k0_pay12 (k0_pay2 v0) (k0_pay3 v0) (k0_pay4 v0) (k0_pay5 v0) (k0_pay6 v0) (k0_pay7 v0) (k0_pay8 v0) (k0_pay9 v0) v33)
        (k0_pay13 v33)
        (ix3 (0 : Fin 1) (0 : Fin 1) (⟨y.val * 32 + x'.val, by omega⟩ : Fin 1024))
      = ∑ ci : Fin 64, Ideal.sign (
          Ideal.sign (v0 (ix4 (0 : Fin 1) ci (⟨y.val + 0, by omega⟩ : Fin 34) (⟨x'.val + 0, by omega⟩ : Fin 34))) * v33 (ix3 (0 : Fin 1) (0 : Fin 9) ci)
          + Ideal.sign (v0 (ix4 (0 : Fin 1) ci (⟨y.val + 0, by omega⟩ : Fin 34) (⟨x'.val + 1, by omega⟩ : Fin 34))) * v33 (ix3 (0 : Fin 1) (1 : Fin 9) ci)
          + Ideal.sign (v0 (ix4 (0 : Fin 1) ci (⟨y.val + 0, by omega⟩ : Fin 34) (⟨x'.val + 2, by omega⟩ : Fin 34))) * v33 (ix3 (0 : Fin 1) (2 : Fin 9) ci)
          + Ideal.sign (v0 (ix4 (0 : Fin 1) ci (⟨y.val + 1, by omega⟩ : Fin 34) (⟨x'.val + 0, by omega⟩ : Fin 34))) * v33 (ix3 (0 : Fin 1) (3 : Fin 9) ci)
          + Ideal.sign (v0 (ix4 (0 : Fin 1) ci (⟨y.val + 1, by omega⟩ : Fin 34) (⟨x'.val + 1, by omega⟩ : Fin 34))) * v33 (ix3 (0 : Fin 1) (4 : Fin 9) ci)
          + Ideal.sign (v0 (ix4 (0 : Fin 1) ci (⟨y.val + 1, by omega⟩ : Fin 34) (⟨x'.val + 2, by omega⟩ : Fin 34))) * v33 (ix3 (0 : Fin 1) (5 : Fin 9) ci)
          + Ideal.sign (v0 (ix4 (0 : Fin 1) ci (⟨y.val + 2, by omega⟩ : Fin 34) (⟨x'.val + 0, by omega⟩ : Fin 34))) * v33 (ix3 (0 : Fin 1) (6 : Fin 9) ci)
          + Ideal.sign (v0 (ix4 (0 : Fin 1) ci (⟨y.val + 2, by omega⟩ : Fin 34) (⟨x'.val + 1, by omega⟩ : Fin 34))) * v33 (ix3 (0 : Fin 1) (7 : Fin 9) ci)
          + Ideal.sign (v0 (ix4 (0 : Fin 1) ci (⟨y.val + 2, by omega⟩ : Fin 34) (⟨x'.val + 2, by omega⟩ : Fin 34))) * v33 (ix3 (0 : Fin 1) (8 : Fin 9) ci)
        ) := by
  refine (pay10_apply v0 _ _ y x').trans (Finset.sum_congr rfl fun ci _ => congrArg Ideal.sign ?_)
  rw [pay12_apply (k0_pay2 v0) (k0_pay3 v0) (k0_pay4 v0) (k0_pay5 v0) (k0_pay6 v0) (k0_pay7 v0) (k0_pay8 v0) (k0_pay9 v0) v33 ci (⟨y.val * 32 + x'.val, by omega⟩ : Fin 1024),
    pay13_apply v33 ci (⟨y.val * 32 + x'.val, by omega⟩ : Fin 1024), pay2_apply v0 ci y x', pay3_apply v0 ci y x', pay4_apply v0 ci y x', pay5_apply v0 ci y x',
    pay6_apply v0 ci y x', pay7_apply v0 ci y x', pay8_apply v0 ci y x', pay9_apply v0 ci y x', zero_add]

end Cert.MajorityConv.PayloadAt

end
-- ==== Proof.KernelBlock.lean ====
/-
  The block the kernel's body leaves, read at a lane on the extended reals.

  Lane 32 y + x' of row co of the block is the sum over the input channels ci of the sign of the nine-term sum
  over the 3 x 3 window at (y, x'): the sign of the padded input block's entry (ci, y + dy, x' + dx) times the
  weight block's entry (co, 3 dy + dx, ci). The loaded weight row of trip co is the slab (co, ., .) of the weight
  block, so its entry (0, t, ci) is the block's entry (co, t, ci).
-/
import proofs.«150547_j66314295050711_2_alg».proof.Proof.KernelRows
import proofs.«150547_j66314295050711_2_alg».proof.Proof.PayloadAt

set_option maxRecDepth 16384

noncomputable section

namespace Cert.KernelIdeal.Rows

open Idealize.ShloMosaic Idealize.ShloMosaic.TcCoe Idealize.ShloMosaic.ValueIdx Idealize.SL.Sem
open Cert.KernelIdeal Cert.KernelIdeal.Gen

variable {F : FTy → Type} [FloatOps F]

/-- Entry (0, t, ci) of the weight row trip k loads is entry (k, t, ci) of the weight block. -/
theorem weightRow_apply (x1 : Vec F S64x9x64 .bf16) (k : Fin k0_t1_loop.trips) (t : Fin 9) (ci : Fin 64) :
    weightRow x1 k (ix3 (0 : Fin 1) t ci) = x1 (ix3 (Fin.cast trips_eq k) t ci) := by
  have h0 : k0_off1 k 0 = k.val := by rw [k0_off1_eq]; rfl
  have h1 : k0_off1 k 1 = 0 := by rw [k0_off1_eq]; rfl
  have h2 : k0_off1 k 2 = 0 := by rw [k0_off1_eq]; rfl
  unfold weightRow
  show x1 ((Rect.unit (s := S64x9x64) (k0_off1 k) S1x9x64.size (k0_off1_inb k)).emb (ix3 (0 : Fin 1) t ci)) = _
  refine congrArg x1 (funext fun a => Fin.ext ?_)
  match a with
  | ⟨0, _⟩ => show k0_off1 k 0 + 1 * 0 = k.val; omega
  | ⟨1, _⟩ => show k0_off1 k 1 + 1 * t.val = t.val; omega
  | ⟨2, _⟩ => show k0_off1 k 2 + 1 * ci.val = ci.val; omega

/-- THE BLOCK AT A LANE: the vote sum over the input channels of the signs of the nine-term window sums. -/
theorem blockOf_apply (x0 : Vec Ideal S1x64x34x34 .f32) (x1 : Vec Ideal S64x9x64 .bf16) (co : Fin 64) (y x' : Fin 32) :
    blockOf (F := Ideal) x0 x1 (ix3 (0 : Fin 1) co (⟨y.val * 32 + x'.val, by omega⟩ : Fin 1024))
      = ∑ ci : Fin 64, Ideal.sign (
          Ideal.sign (x0 (ix4 (0 : Fin 1) ci (⟨y.val + 0, by omega⟩ : Fin 34) (⟨x'.val + 0, by omega⟩ : Fin 34))) * x1 (ix3 co (0 : Fin 9) ci)
          + Ideal.sign (x0 (ix4 (0 : Fin 1) ci (⟨y.val + 0, by omega⟩ : Fin 34) (⟨x'.val + 1, by omega⟩ : Fin 34))) * x1 (ix3 co (1 : Fin 9) ci)
          + Ideal.sign (x0 (ix4 (0 : Fin 1) ci (⟨y.val + 0, by omega⟩ : Fin 34) (⟨x'.val + 2, by omega⟩ : Fin 34))) * x1 (ix3 co (2 : Fin 9) ci)
          + Ideal.sign (x0 (ix4 (0 : Fin 1) ci (⟨y.val + 1, by omega⟩ : Fin 34) (⟨x'.val + 0, by omega⟩ : Fin 34))) * x1 (ix3 co (3 : Fin 9) ci)
          + Ideal.sign (x0 (ix4 (0 : Fin 1) ci (⟨y.val + 1, by omega⟩ : Fin 34) (⟨x'.val + 1, by omega⟩ : Fin 34))) * x1 (ix3 co (4 : Fin 9) ci)
          + Ideal.sign (x0 (ix4 (0 : Fin 1) ci (⟨y.val + 1, by omega⟩ : Fin 34) (⟨x'.val + 2, by omega⟩ : Fin 34))) * x1 (ix3 co (5 : Fin 9) ci)
          + Ideal.sign (x0 (ix4 (0 : Fin 1) ci (⟨y.val + 2, by omega⟩ : Fin 34) (⟨x'.val + 0, by omega⟩ : Fin 34))) * x1 (ix3 co (6 : Fin 9) ci)
          + Ideal.sign (x0 (ix4 (0 : Fin 1) ci (⟨y.val + 2, by omega⟩ : Fin 34) (⟨x'.val + 1, by omega⟩ : Fin 34))) * x1 (ix3 co (7 : Fin 9) ci)
          + Ideal.sign (x0 (ix4 (0 : Fin 1) ci (⟨y.val + 2, by omega⟩ : Fin 34) (⟨x'.val + 2, by omega⟩ : Fin 34))) * x1 (ix3 co (8 : Fin 9) ci)) := by
  have hc : Fin.cast trips_eq (Fin.cast trips_eq.symm co) = co := Fin.ext rfl
  unfold blockOf storedRow
  refine (Cert.MajorityConv.PayloadAt.storedRow_apply x0 (weightRow x1 (Fin.cast trips_eq.symm co)) y x').trans ?_
  simp only [weightRow_apply, hc]

end Cert.KernelIdeal.Rows

end
-- ==== Proof.KernelArray.lean ====
/-
  From the blocks the grid points write back to the whole result array.

  The grid has sixteen points, one per batch entry b. Point b reads block b of the padded sign input, a [1, 64, 34, 34]
  slab, and all of the signed weight; it computes one [1, 64, 1024] block from them and writes it back as block b of the
  [16, 64, 1024] result. The sixteen blocks tile the result, so after the run the result at (b, co, p) is the block
  computed from slab b of the input and the whole weight, read at (0, co, p).
-/
import proofs.«150547_j66314295050711_2_alg».proof.Proof.KernelRows
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- Slab b of the padded input: its entries (b, ci, a, c) as a [1, 64, 34, 34] array. -/
def slab (c : Dev nD) (b : Fin 16) : Vec F S1x64x34x34 .f32 :=
  fun j => (V m c main_v0 : S16x64x34x34.Idx → Elt F .f32) (ix4 b (j 1) (j 2) (j 3))

/-- The whole result as one function of the two arrays the grid reads: at (b, co, p), the block computed from slab b and
    the whole weight, at (0, co, p). -/
def wholeResult (c : Dev nD) : S16x64x1024.Idx → Elt F .f32 :=
  fun i => Rows.blockOf (slab m c (i 0)) (V m c main_v3) (ix3 (0 : Fin 1) (i 1) (i 2))

/-- The block computed from two input blocks depends on its index only through the row and the lane. -/
theorem blockOf_congr (x0 x0' : Vec F S1x64x34x34 .f32) (x1 x1' : Vec F S64x9x64 .bf16) (y y' : S1x64x1024.Idx)
    (h0 : x0 = x0') (h1 : x1 = x1') (hy1 : y 1 = y' 1) (hy2 : y 2 = y' 2) :
    Rows.blockOf x0 x1 y = Rows.blockOf x0' x1' y' := by
  subst h0 h1
  unfold Rows.blockOf
  rw [hy1, hy2]

/-- The block index of each window at grid point t, decided once over the sixteen points: the input's and the result's
    blocks move with t along the batch axis only, the weight's one block is the whole weight. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block point t reads is slab t of the padded input. -/
theorem inputBlock_eq (c : Dev nD) (t : Fin cfg0.N) (b : Fin 16) (hb : b.val = t.val) :
    (iblk m c 0 t : Vec F S1x64x34x34 .f32) = slab m c b := by
  obtain ⟨e0, e1, e2, e3, -⟩ := index_facts t
  funext j
  show V m c main_v0 (((cfg0.win 0).blk t).view.emb j) = V m c main_v0 (ix4 b (j 1) (j 2) (j 3))
  refine congrArg (V m c main_v0) (funext fun a => Fin.ext ?_)
  match a with
  | ⟨0, _⟩ => show win0_0.index t (0 : Fin 4) * 1 + 1 * (j 0).val = b.val; have hj : (j 0).val < 1 := (j 0).isLt; omega
  | ⟨1, _⟩ => show win0_0.index t (1 : Fin 4) * 64 + 1 * (j 1).val = (j 1).val; omega
  | ⟨2, _⟩ => show win0_0.index t (2 : Fin 4) * 34 + 1 * (j 2).val = (j 2).val; omega
  | ⟨3, _⟩ => show win0_0.index t (3 : Fin 4) * 34 + 1 * (j 3).val = (j 3).val; omega

/-- The weight block every point reads is the whole weight. -/
theorem weightBlock_eq (c : Dev nD) (t : Fin cfg0.N) :
    (iblk m c 1 t : Vec F S64x9x64 .bf16) = V m c main_v3 := by
  obtain ⟨-, -, -, -, e0, e1, e2, -⟩ := index_facts t
  funext j
  show V m c main_v3 (((cfg0.win 1).blk t).view.emb j) = V m c main_v3 j
  refine congrArg (V m c main_v3) (funext fun a => Fin.ext ?_)
  match a with
  | ⟨0, _⟩ => show win0_1.index t (0 : Fin 3) * 64 + 1 * (j 0).val = (j 0).val; omega
  | ⟨1, _⟩ => show win0_1.index t (1 : Fin 3) * 9 + 1 * (j 1).val = (j 1).val; omega
  | ⟨2, _⟩ => show win0_1.index t (2 : Fin 3) * 64 + 1 * (j 2).val = (j 2).val; omega

/-- What point t writes back is block t of the whole result. -/
theorem flushed_eq (c : Dev nD) (t : Fin cfg0.N) :
    (dats m 0 c).flushed 2 t = ((cfg0.win 2).blk t).view.read (Elt F) (wholeResult m c) := by
  show (cfg0.win 2).cut (grid0.coords t) ((dats m 0 c).after 2 t) = _
  rw [after0_2]
  unfold outsAt0
  rw [Rows.out_eq_blockOf]
  obtain ⟨-, -, -, -, -, -, -, e0, e1, e2⟩ := index_facts t
  funext y
  have hN : cfg0.N = 16 := N_0
  show Rows.blockOf (iblk m c 0 t) (iblk m c 1 t) y
    = Rows.blockOf (slab m c (((cfg0.win 2).blk t).view.emb y 0)) (V m c main_v3)
        (ix3 (0 : Fin 1) (((cfg0.win 2).blk t).view.emb y 1) (((cfg0.win 2).blk t).view.emb y 2))
  refine blockOf_congr (iblk m c 0 t) (slab m c (((cfg0.win 2).blk t).view.emb y 0)) (iblk m c 1 t) (V m c main_v3) y
    (ix3 (0 : Fin 1) (((cfg0.win 2).blk t).view.emb y 1) (((cfg0.win 2).blk t).view.emb y 2))
    (inputBlock_eq m c t (((cfg0.win 2).blk t).view.emb y 0) ?_) (weightBlock_eq m c t) (Fin.ext ?_) (Fin.ext ?_)
  · show win0_2.index t (0 : Fin 3) * 1 + 1 * (y 0).val = t.val
    have hy : (y 0).val < 1 := (y 0).isLt
    omega
  · show (y 1).val = win0_2.index t (1 : Fin 3) * 64 + 1 * (y 1).val
    omega
  · show (y 2).val = win0_2.index t (2 : Fin 3) * 1024 + 1 * (y 2).val
    omega

/-- An index of the result is in point t's block iff each coordinate is in the block's range on its axis. -/
theorem mem_block (t : Fin cfg0.N) (i : S16x64x1024.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v4).slice (win0_2.rect t)).set ↔ _
  rw [View.set_slice_whole, Rect.mem_set_unit]
  exact Iff.rfl

/-- Every index of the result is in the block of the point of its batch entry, and every point writes back. -/
theorem covered (i : S16x64x1024.Idx) :
    ∃ t : Fin cfg0.N, (cfg0.win 2).flush t = true ∧ i ∈ ((cfg0.win 2).blk t).view.set := by
  have hN : cfg0.N = 16 := N_0
  have h0 : (i 0).val < 16 := (i 0).isLt
  have h1 : (i 1).val < 64 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, e0, e1, e2⟩ := index_facts t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 1024 ≤ (i 2).val ∧ (i 2).val < win0_2.index t (2 : Fin 3) * 1024 + 1024; omega

/-- The result array after the run is the whole result. -/
theorem arrAt_eq (c : Dev nD) : (dats m 0 c).arrAt 2 cfg0.N = wholeResult m c :=
  (dats m 0 c).arrAt_eq_of_cover 2 (wholeResult m c) (fun t _ => flushed_eq m c t) covered

/-- The result array after the run, at (b, co, p): the block computed from slab b of the padded input and the whole
    weight, at (0, co, p). -/
theorem arrAt_apply (c : Dev nD) (b : Fin 16) (co : Fin 64) (p : Fin 1024) :
    ((dats m 0 c).arrAt 2 cfg0.N : S16x64x1024.Idx → Elt F .f32) (ix3 b co p)
      = Rows.blockOf (fun j : S1x64x34x34.Idx => (V m c main_v0 : S16x64x34x34.Idx → Elt F .f32) (ix4 b (j 1) (j 2) (j 3)))
          (V m c main_v3) (ix3 (0 : Fin 1) co p) := by
  rw [arrAt_eq]
  rfl

end Cert.KernelIdeal.ArrayValue

end
-- ==== Proof.KernelHost.lean ====
/-
  The host operations around the kernel's region, read as values: the padded input the region stages, the
  signed weight in its [64, 9, 64] layout, and the result array reshaped back to rows and columns.
-/
import proofs.«150547_j66314295050711_2_alg».proof.Proof.Gen.KernelIdeal.Frame
import proofs.«150547_j66314295050711_2_alg».proof.Proof.MajoritySpec
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.HostValue

open Idealize.ShloMosaic Idealize.ShloMosaic.TcCoe Idealize.ShloMosaic.ValueIdx Idealize.ShloMosaic.StableHlo Idealize.SL.Sem
open Cert.KernelIdeal Cert.KernelIdeal.Gen Cert.MajorityConv

variable (m : (ℓ : Loc nD τ sig) → Buf (Elt Ideal) ℓ)

/-! ## The padded input -/

/-- The sign of the real 0 is 0. -/
theorem sign_zero' : Ideal.sign (0 : EReal) = 0 := by
  rw [← EReal.coe_zero, Ideal.sign_coe]
  simp

/-- The sign commutes with a pad whose fill is 0: inside, both read the operand's entry; on the border, the sign of 0 is 0. -/
theorem sign_pad_zero {s t u : Shape} (lo hi interior : Fin s.rank → Nat) (x : s.Idx → EReal)
    (h : s.Pads lo hi interior t) (hu : 0 < u.numel) (j : t.Idx) :
    Ideal.sign (pad t lo hi interior x (fun _ : u.Idx => (0 : EReal)) h hu j)
      = pad t lo hi interior (fun i => Ideal.sign (x i)) (fun _ : u.Idx => (0 : EReal)) h hu j := by
  unfold pad
  split
  · rfl
  · exact sign_zero'

/-- The array the region's first window stages: the input with a border of zeros (the fill, the integer 0 converted, is the real 0). -/
theorem V_v0 (c : Dev nD) :
    (Gen.V m c main_v0 : S16x64x34x34.Idx → EReal)
      = pad S16x64x34x34 ![0, 0, 1, 1] ![0, 0, 1, 1] ![0, 0, 0, 0] (m ((c : Thread nD τ).loc main_arg0) : S16x64x32x32.Idx → EReal)
          (fun _ : S_.Idx => (0 : EReal)) pads_S16x64x32x32_S16x64x34x34_000_000_110_110 h_S_ := by
  dsimp only [Gen.V, Gen.V0]
  simp only [Gen.hostOps0, Gen.hostOps0_1, Gen.hostOps0_2, List.flatten_cons, List.flatten_nil, List.append_nil, List.cons_append,
    List.nil_append]
  after_results
  show pad S16x64x34x34 ![0, 0, 1, 1] ![0, 0, 1, 1] ![0, 0, 0, 0] (m ((c : Thread nD τ).loc main_arg0) : S16x64x32x32.Idx → EReal)
      (fun _ : S_.Idx => (((0#32 : BitVec 32).toInt : ℝ) : EReal)) pads_S16x64x32x32_S16x64x34x34_000_000_110_110 h_S_ = _
  have h0 : (((0#32 : BitVec 32).toInt : ℝ) : EReal) = 0 := by simp
  rw [h0]

/-- (H1) The sign of an entry of the staged input is the entry of the specification's padded sign array. -/
theorem sign_input_entry (c : Dev nD) (j : S16x64x34x34.Idx) :
    Ideal.sign ((Gen.V m c main_v0 : S16x64x34x34.Idx → EReal) j) = signPad (m ((c : Thread nD τ).loc main_arg0)) j := by
  rw [V_v0 m c]
  exact sign_pad_zero _ _ _ _ _ _ j

/-! ## The weight in its [64, 9, 64] layout -/

/-- The array the region's second window stages: the weight's signs, reshaped (the change of format is the identity on the extended reals). -/
theorem V_v3 (c : Dev nD) :
    (Gen.V m c main_v3 : S64x9x64.Idx → EReal)
      = shapeCast S64x9x64 (fun j => Ideal.sign ((m ((c : Thread nD τ).loc main_arg1) : S64x3x3x64.Idx → EReal) j))
          shapeCasts_S64x3x3x64_S64x9x64 := by
  dsimp only [Gen.V, Gen.V0]
  simp only [Gen.hostOps0, Gen.hostOps0_1, Gen.hostOps0_2, List.flatten_cons, List.flatten_nil, List.append_nil, List.cons_append,
    List.nil_append]
  after_results
  rfl

/-- (H2) Row 3 * dy + dx of the staged weight holds the signs of tap (dy, dx). -/
theorem weight_entry (c : Dev nD) (co ci : Fin 64) (dy dx : Fin 3) :
    (Gen.V m c main_v3 : S64x9x64.Idx → EReal) (ix3 co (⟨3 * dy.val + dx.val, by omega⟩ : Fin 9) ci)
      = Ideal.sign ((m ((c : Thread nD τ).loc main_arg1) : S64x3x3x64.Idx → EReal) (ix4 co dy dx ci)) := by
  rw [V_v3 m c]
  exact shapeCast_apply _ shapeCasts_S64x3x3x64_S64x9x64 _ (ix4 co dy dx ci) (by
    rw [Shape.rowMajor_val_four, Shape.rowMajor_val_three]
    show ((co.val * 3 + dy.val) * 3 + dx.val) * 64 + ci.val = (co.val * 9 + (3 * dy.val + dx.val)) * 64 + ci.val
    omega)

/-! ## The result array, reshaped back to rows and columns -/

/-- What the result buffer holds at the end: the array the region's third window wrote, reshaped. -/
theorem tail_v5 (c : Dev nD) :
    (Pipeline.afterTail₀ cfgs (Gen.dats m) 0 (Gen.V0 m) [Gen.hostOps1] c main_v5 : S16x64x32x32.Idx → EReal)
      = shapeCast S16x64x32x32 ((Gen.dats m 0 c).arrAt 2 cfg0.N : S16x64x1024.Idx → EReal)
          shapeCasts_S16x64x1024_S16x64x32x32 := by
  unfold Pipeline.afterTail₀
  show StableHlo.after Gen.hostOps1 _ (Proc.devRef .tc main_v5) = _
  after_results
  rw [Pipeline.withArrays_arr spec0 launch0.win.arr_inj c _ _ 2]
  rfl

/-- (H3) The result at (b, co, y, x') is the written array's entry at position y * 32 + x' of its last axis. -/
theorem result_entry (c : Dev nD) (b : Fin 16) (co : Fin 64) (y x' : Fin 32) :
    (Pipeline.afterTail₀ cfgs (Gen.dats m) 0 (Gen.V0 m) [Gen.hostOps1] c main_v5 : S16x64x32x32.Idx → EReal) (ix4 b co y x')
      = ((Gen.dats m 0 c).arrAt 2 cfg0.N : S16x64x1024.Idx → EReal) (ix3 b co (⟨y.val * 32 + x'.val, by omega⟩ : Fin 1024)) := by
  rw [tail_v5 m c]
  exact shapeCast_apply _ shapeCasts_S16x64x1024_S16x64x32x32 _ (ix3 b co (⟨y.val * 32 + x'.val, by omega⟩ : Fin 1024)) (by
    rw [Shape.rowMajor_val_three, Shape.rowMajor_val_four]
    show (b.val * 64 + co.val) * 1024 + (y.val * 32 + x'.val) = ((b.val * 64 + co.val) * 32 + y.val) * 32 + x'.val
    omega)

end Cert.KernelIdeal.HostValue

end
-- ==== Proof.KernelValue.lean ====
/-
  The kernel program's result array is the majority convolution of its two arguments.

  The result at (b, co, y, x') is, through the reshape after the region, entry (b, co, 32 y + x') of the array the
  region writes; that array is tiled by the 16 blocks the grid points write back, and block b at (0, co, 32 y + x')
  is the sum over the input channels of the sign of the nine-term window sum, over the padded input's slab b and the
  signed, reshaped weight. The sign of a padded input entry is an entry of the padded sign array (the sign of 0 is 0),
  and entry (co, 3 dy + dx, ci) of the reshaped weight is the sign of the weight's entry (co, dy, dx, ci): term by
  term this is the specification's vote sum.
-/
import proofs.«150547_j66314295050711_2_alg».proof.Proof.KernelBlock
import proofs.«150547_j66314295050711_2_alg».proof.Proof.KernelArray
import proofs.«150547_j66314295050711_2_alg».proof.Proof.KernelHost
import proofs.«150547_j66314295050711_2_alg».proof.Proof.MajoritySpec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen
open scoped BigOperators

/-- What the kernel program's result buffer holds after the run, on the extended reals: G of the two arguments. -/
theorem result_is_G (m : (ℓ : Loc nD τ sig) → Buf (Elt Ideal) ℓ) (c : Dev nD) :
    (Pipeline.afterTail₀ cfgs (Gen.dats m) 0 (Gen.V0 m) [Gen.hostOps1] c main_v5 : S16x64x32x32.Idx → EReal)
      = Cert.MajorityConv.G (m ((c.tc : Thread nD τ).loc main_arg0)) (m ((c.tc : Thread nD τ).loc main_arg1)) := by
  funext i
  obtain ⟨b, co, y, x', rfl⟩ : ∃ (b : Fin 16) (co : Fin 64) (y x' : Fin 32), i = ix4 b co y x' := ⟨i 0, i 1, i 2, i 3, eq_ix4 i⟩
  show ((Pipeline.afterTail₀ cfgs (Gen.dats m) 0 (Gen.V0 m) [Gen.hostOps1] c main_v5 : S16x64x32x32.Idx → EReal) (ix4 b co y x') : EReal) = (Cert.MajorityConv.G (m ((c.tc : Thread nD τ).loc main_arg0)) (m ((c.tc : Thread nD τ).loc main_arg1)) (ix4 b co y x') : EReal)
  rw [HostValue.result_entry m c b co y x', ArrayValue.arrAt_apply m c b co, Rows.blockOf_apply, Cert.MajorityConv.G_ix4]
  unfold Cert.MajorityConv.voteSum
  show (∑ ci : Fin 64, _ : EReal) = (∑ ci : Fin 64, _ : EReal)
  refine Finset.sum_congr rfl fun ci _ => congrArg Ideal.sign ?_
  have hin : ∀ a c' : Fin 34, Ideal.sign ((fun j : S1x64x34x34.Idx => (Gen.V m c main_v0 : S16x64x34x34.Idx → EReal) (ix4 b (j 1) (j 2) (j 3))) (ix4 (0 : Fin 1) ci a c')) = Cert.MajorityConv.signPad (m ((c.tc : Thread nD τ).loc main_arg0)) (ix4 b ci a c') :=
    fun a c' => HostValue.sign_input_entry m c (ix4 b ci a c')
  have w0 : (Gen.V m c main_v3 : S64x9x64.Idx → EReal) (ix3 co (0 : Fin 9) ci) = Ideal.sign ((m ((c.tc : Thread nD τ).loc main_arg1)) (ix4 co (0 : Fin 3) (0 : Fin 3) ci)) := HostValue.weight_entry m c co ci 0 0
  have w1 : (Gen.V m c main_v3 : S64x9x64.Idx → EReal) (ix3 co (1 : Fin 9) ci) = Ideal.sign ((m ((c.tc : Thread nD τ).loc main_arg1)) (ix4 co (0 : Fin 3) (1 : Fin 3) ci)) := HostValue.weight_entry m c co ci 0 1
  have w2 : (Gen.V m c main_v3 : S64x9x64.Idx → EReal) (ix3 co (2 : Fin 9) ci) = Ideal.sign ((m ((c.tc : Thread nD τ).loc main_arg1)) (ix4 co (0 : Fin 3) (2 : Fin 3) ci)) := HostValue.weight_entry m c co ci 0 2
  have w3 : (Gen.V m c main_v3 : S64x9x64.Idx → EReal) (ix3 co (3 : Fin 9) ci) = Ideal.sign ((m ((c.tc : Thread nD τ).loc main_arg1)) (ix4 co (1 : Fin 3) (0 : Fin 3) ci)) := HostValue.weight_entry m c co ci 1 0
  have w4 : (Gen.V m c main_v3 : S64x9x64.Idx → EReal) (ix3 co (4 : Fin 9) ci) = Ideal.sign ((m ((c.tc : Thread nD τ).loc main_arg1)) (ix4 co (1 : Fin 3) (1 : Fin 3) ci)) := HostValue.weight_entry m c co ci 1 1
  have w5 : (Gen.V m c main_v3 : S64x9x64.Idx → EReal) (ix3 co (5 : Fin 9) ci) = Ideal.sign ((m ((c.tc : Thread nD τ).loc main_arg1)) (ix4 co (1 : Fin 3) (2 : Fin 3) ci)) := HostValue.weight_entry m c co ci 1 2
  have w6 : (Gen.V m c main_v3 : S64x9x64.Idx → EReal) (ix3 co (6 : Fin 9) ci) = Ideal.sign ((m ((c.tc : Thread nD τ).loc main_arg1)) (ix4 co (2 : Fin 3) (0 : Fin 3) ci)) := HostValue.weight_entry m c co ci 2 0
  have w7 : (Gen.V m c main_v3 : S64x9x64.Idx → EReal) (ix3 co (7 : Fin 9) ci) = Ideal.sign ((m ((c.tc : Thread nD τ).loc main_arg1)) (ix4 co (2 : Fin 3) (1 : Fin 3) ci)) := HostValue.weight_entry m c co ci 2 1
  have w8 : (Gen.V m c main_v3 : S64x9x64.Idx → EReal) (ix3 co (8 : Fin 9) ci) = Ideal.sign ((m ((c.tc : Thread nD τ).loc main_arg1)) (ix4 co (2 : Fin 3) (2 : Fin 3) ci)) := HostValue.weight_entry m c co ci 2 2
  rw [hin, hin, hin, hin, hin, hin, hin, hin, hin, w0, w1, w2, w3, w4, w5, w6, w7, w8]
  rfl

end Cert.KernelIdeal.KernelValue

end
-- ==== Proof.lean ====
/-
  The certificate of the binarized majority-vote convolution: a kernel that pads the input with a border of zeros on the
  host, takes signs inside the kernel, and for each of the 64 output channels adds up the nine window products per
  input channel, takes the sign of that sum and sums the 64 signs, against a reference that binarizes by
  v + (sign v - v), pads, forms the nine products over a five-axis array, binarizes the sum the same way and sums
  over the input-channel axis.

  On the extended reals both are one function of the two arguments (MajoritySpec): the sign of 0 is 0, so taking
  signs after the zero pad or before it is the same array; the kernel's spelling of the sign (1 with the sign of v
  where |v| > 0, else v itself) is the sign; the reference's  v + (sign v - v)  is  sign v  when v is a real number,
  which the precondition gives for the arguments (Finite) and which holds of every nine-term sum because signs and
  their products and sums are real. The kernel's value is read off its run: the 64 rows a grid point's loop stores
  make up one block (KernelRows, KernelBlock over PayloadAt), the 16 blocks tile the result array (KernelArray), and
  the host operations before and after the region are a pad, a sign with a reshape, and a reshape (KernelHost);
  KernelValue joins them. The reference's value is read one host operation at a time (RefRead). The two rewrites of
  the kernel's sign-bit window are the rule's own statement at the two shapes.
-/
import proofs.«150547_j66314295050711_2_alg».proof.Defs
import proofs.«150547_j66314295050711_2_alg».proof.Proof.Gen.Kernel
import proofs.«150547_j66314295050711_2_alg».proof.Proof.Gen.Kernel.Skeleton
import proofs.«150547_j66314295050711_2_alg».proof.Proof.Gen.Kernel.Loops
import proofs.«150547_j66314295050711_2_alg».proof.Proof.Gen.Kernel.Launch
import proofs.«150547_j66314295050711_2_alg».proof.Proof.Gen.Kernel.Points
import proofs.«150547_j66314295050711_2_alg».proof.Proof.Gen.Kernel.Frame
import proofs.«150547_j66314295050711_2_alg».proof.Proof.Gen.KernelIdeal
import proofs.«150547_j66314295050711_2_alg».proof.Proof.Gen.KernelIdeal.Skeleton
import proofs.«150547_j66314295050711_2_alg».proof.Proof.Gen.KernelIdeal.Loops
import proofs.«150547_j66314295050711_2_alg».proof.Proof.Gen.KernelIdeal.Launch
import proofs.«150547_j66314295050711_2_alg».proof.Proof.Gen.KernelIdeal.Points
import proofs.«150547_j66314295050711_2_alg».proof.Proof.Gen.KernelIdeal.Frame
import proofs.«150547_j66314295050711_2_alg».proof.Proof.Gen.ReferenceIdeal
import proofs.«150547_j66314295050711_2_alg».proof.Proof.Gen.ReferenceIdeal.Run
import proofs.«150547_j66314295050711_2_alg».proof.Proof.Gen.ReferenceIdeal.Read
import proofs.«150547_j66314295050711_2_alg».proof.Proof.Gen.Pre_finite_inputs
import proofs.«150547_j66314295050711_2_alg».proof.Proof.MajoritySpec
import proofs.«150547_j66314295050711_2_alg».proof.Proof.Finite
import proofs.«150547_j66314295050711_2_alg».proof.Proof.RefRead
import proofs.«150547_j66314295050711_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The two places where 1 carrying v's sign bit was printed as a comparison with zero: the rule's statement at the
    shape of the padded input block and at the shape of a loop trip's window sums. -/
theorem preserves : Cert.preserves_Kernel_KernelIdeal :=
  ⟨IdealRules.sign_bit.statement Cert.KernelIdeal.S64x34x34 .f32, IdealRules.sign_bit.statement Cert.KernelIdeal.S64x1024 .f32⟩

/-- From memories agreeing on the two arguments, both programs end with the majority convolution of the arguments. -/
theorem algebraic : Cert.algebraic_KernelIdeal_ReferenceIdeal := by
  intro m ρ m' ρ' hpre hagree
  refine ⟨fun c => Cert.MajorityConv.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main m ρ)
    · exact ((h c).2 Cert.KernelIdeal.main_v5 (Pipeline.mem_restRefs_of Cert.KernelIdeal.main_v5 (by decide) (by decide))).trans
        (Cert.KernelIdeal.KernelValue.result_is_G m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2⟩) (Cert.ReferenceIdeal.Value.run (F := Ideal) m' ρ')
    obtain ⟨hx, hw⟩ := Cert.MajorityConv.Finite.isReal_of_pre _ _ (hpre c)
    rw [(h c).1, Cert.ReferenceIdeal.Read.val_main_v92_eq, (hagree c).1, (hagree c).2]
    exact Cert.ReferenceIdeal.RefValue.ref_is_G _ _ hx hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
